-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 108
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x128, .f32⟩
  | .hbm, ⟨80, _⟩ => ⟨S1700000x1, .f32⟩
  | .hbm, ⟨81, _⟩ => ⟨S1700000x128, .f32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x64, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000x64, .f32⟩
  | .hbm, ⟨99, _⟩ => ⟨S1700000x1, .f32⟩
  | .hbm, ⟨100, _⟩ => ⟨S1700000x64, .f32⟩
  | .hbm, ⟨101, _⟩ => ⟨S1700000x64, .f32⟩
  | .hbm, ⟨102, _⟩ => ⟨S_, .f32⟩
  | .hbm, ⟨103, _⟩ => ⟨S100000x64, .f32⟩
  | .hbm, ⟨104, _⟩ => ⟨S1700000x1, .i32⟩
  | .hbm, ⟨105, _⟩ => ⟨S100000x64, .f32⟩
  | .hbm, ⟨106, _⟩ => ⟨S1x64, .f32⟩
  | .hbm, ⟨107, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_12 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x128, .f32⟩
  | .hbm, ⟨84, _⟩ => ⟨S1700000x1, .f32⟩
  | .hbm, ⟨85, _⟩ => ⟨S1700000x128, .f32⟩
  | .hbm, ⟨86, _⟩ => ⟨S1700000x128, .f32⟩
  | .hbm, ⟨87, _⟩ => ⟨S_, .f32⟩
  | .hbm, ⟨88, _⟩ => ⟨S100000x128, .f32⟩
  | .hbm, ⟨89, _⟩ => ⟨S1700000x1, .i32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000x128, .f32⟩
  | .hbm, ⟨96, _⟩ => ⟨S100000x128, .f32⟩
  | .hbm, ⟨97, _⟩ => ⟨S100000x64, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000x64, .f32⟩
  | .hbm, ⟨107, _⟩ => ⟨S1700000x1, .f32⟩
  | .hbm, ⟨108, _⟩ => ⟨S1700000x64, .f32⟩
  | .hbm, ⟨109, _⟩ => ⟨S1700000x64, .f32⟩
  | .hbm, ⟨110, _⟩ => ⟨S_, .f32⟩
  | .hbm, ⟨111, _⟩ => ⟨S100000x64, .f32⟩
  | .hbm, ⟨112, _⟩ => ⟨S1700000x1, .i32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_12 : Ref sig .tc := ⟨.hbm, 98, rfl⟩
abbrev main_v69 : Ref sig .tc := ⟨.hbm, 99, rfl⟩
abbrev main_v70 : Ref sig .tc := ⟨.hbm, 100, rfl⟩
abbrev main_c_13 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_14 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel program's run with its result named: every weakly fair execution of @main terminates,
  nothing faulting, and its result buffer ends at the contents the last region leaves (the fold of the host
  operations and the regions' write-backs from the launch memory), the arguments as launched: the launch of the
  program's segments (its stretches of host operations and its six regions in order), the last thread state read
  at the result buffer and at every argument.
-/
import proofs.«104128_j38603166056972_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, every argument as launched. -/
theorem run_main : θ_run defs (onTc (τ := τ) (main (F := F))) ⟨m, fun _ => 0, ρ⟩ (fun r => ∀ c : Dev nD,
      r.2.mem ((c.tc : Thread nD τ).loc main_v79) = W12 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v79 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.Run

end
-- ==== Proof.Stages.lean ====
/-
  The graph convolution network's stages as whole-array functions, each spelt with the host operations of the
  reference program: the self-looped edge lists, the weighted in-degree, the symmetric normalisation
  dis[row] * dis[col] * w, one layer's aggregation  out[n, :] = sum over edges e with col e = n of h[row e, :] * norm e,
  the bias row broadcast over the nodes, max(., 0), the dense product, and the three-layer network built of them.
-/
import proofs.«104128_j38603166056972_1_alg».proof.ReferenceIdeal
import Idealize.ShloMosaic.PureOps.Ideal

noncomputable section

namespace Cert.Gcn

open Idealize.ShloMosaic Cert.ReferenceIdeal

variable {F : FTy → Type} [FloatOps F] [Facts₀]
open Facts₀

/-- Row 0 of the edge list (the source nodes) followed by 0, 1, ..., 99999: one self loop per node. -/
def sources (ei : Vec F S2x1600000 .i32) : Vec F S1700000 .i32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- Row 1 of the edge list (the target nodes) followed by the self loops. -/
def targets (ei : Vec F S2x1600000 .i32) : Vec F S1700000 .i32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The edge weights followed by weight 1 for every self loop. -/
def weights (ew : Vec F S1600000 .f32) : Vec F S1700000 .f32 :=
  concatenate S1700000 0 [⟨S1600000, ew⟩, ⟨S100000, (broadcastInDim S100000 ![] bcast_S_S100000 (constant S_ .f32 0x3F800000#32))⟩] concatenates_S1600000_S100000_S1700000_d0

/-- A node's weighted in-degree: the sum of the weights of the edges that point at it. -/
def degree (ei : Vec F S2x1600000 .i32) (ew : Vec F S1600000 .f32) : Vec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (targets ei)) (weights ew)

/-- 1/sqrt(degree) where the degree is positive, 0 elsewhere. -/
def invSqrtDegree (ei : Vec F S2x1600000 .i32) (ew : Vec F S1600000 .f32) : Vec F S100000 .f32 :=
  select (cmpf .ogt (degree ei ew) (broadcastInDim S100000 ![] bcast_S_S100000 (constant S_ .f32 0x00000000#32))) (Host.rsqrt (degree ei ew)) (broadcastInDim S100000 ![] bcast_S_S100000 (id (constant S_ .f32 0x00000000#32)))

/-- jnp's reading of a node index: a negative one counts from the end. -/
def wrapped (r : Vec F S1700000 .i32) : Vec F S1700000 .i32 :=
  select (cmpi .slt r (broadcastInDim S1700000 ![] bcast_S_S1700000 (constantI S_ 32 0#32))) (addi r (broadcastInDim S1700000 ![] bcast_S_S1700000 (constantI S_ 32 100000#32))) r

/-- The symmetric normalisation of every edge: dis[source] * dis[target] * weight. -/
def edgeNorm (ei : Vec F S2x1600000 .i32) (ew : Vec F S1600000 .f32) : Vec F S1700000 .f32 :=
  mulf (mulf (Host.gather gather_S100000_S1700000x1_S1700000_n_0_n_n_0_1_1 (invSqrtDegree ei ew) (broadcastInDim S1700000x1 ![0] bcast_S1700000_S1700000x1_0 (wrapped (sources ei)))) (Host.gather gather_S100000_S1700000x1_S1700000_n_0_n_n_0_1_1 (invSqrtDegree ei ew) (broadcastInDim S1700000x1 ![0] bcast_S1700000_S1700000x1_0 (wrapped (targets ei))))) (weights ew)

/-- One layer's aggregation over 128 features: every edge carries its source's row scaled by the edge's
    normalisation to its target, where the rows are summed. -/
def aggregate128 (h : Vec F S100000x128 .f32) (src tgt : Vec F S1700000 .i32) (nrm : Vec F S1700000 .f32) : Vec F S100000x128 .f32 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 tgt) (mulf (Host.gather gather_S100000x128_S1700000x1_S1700000x128_1_0_n_n_0_1_1128 h (broadcastInDim S1700000x1 ![0] bcast_S1700000_S1700000x1_0 (wrapped src))) (broadcastInDim S1700000x128 ![0, 1] bcast_S1700000x1_S1700000x128_0_1 (broadcastInDim S1700000x1 ![0] bcast_S1700000_S1700000x1_0 nrm)))

/-- The same over 64 features. -/
def aggregate64 (h : Vec F S100000x64 .f32) (src tgt : Vec F S1700000 .i32) (nrm : Vec F S1700000 .f32) : Vec F S100000x64 .f32 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 tgt) (mulf (Host.gather gather_S100000x64_S1700000x1_S1700000x64_1_0_n_n_0_1_164 h (broadcastInDim S1700000x1 ![0] bcast_S1700000_S1700000x1_0 (wrapped src))) (broadcastInDim S1700000x64 ![0, 1] bcast_S1700000x1_S1700000x64_0_1 (broadcastInDim S1700000x1 ![0] bcast_S1700000_S1700000x1_0 nrm)))

/-- A [1, 128] row repeated for every node. -/
def rows128 (b : Vec F S1x128 .f32) : Vec F S100000x128 .f32 :=
  broadcastInDim S100000x128 ![0, 1] bcast_S1x128_S100000x128_0_1 b

/-- A [1, 64] row repeated for every node. -/
def rows64 (b : Vec F S1x64 .f32) : Vec F S100000x64 .f32 :=
  broadcastInDim S100000x64 ![0, 1] bcast_S1x64_S100000x64_0_1 b

/-- max(., 0), element by element. -/
def relu128 (a : Vec F S100000x128 .f32) : Vec F S100000x128 .f32 :=
  maximumf a (broadcastInDim S100000x128 ![] bcast_S_S100000x128 (constant S_ .f32 0x00000000#32))

/-- x @ w for w of 128 x 128. -/
def dense128 (x : Vec F S100000x128 .f32) (w : Vec F S128x128 .f32) : Vec F S100000x128 .f32 :=
  Host.dotGeneral dot_S100000x128_S128x128_S100000x128_1_0_0_1_n_n none x w

/-- x @ w for w of 128 x 64. -/
def dense64 (x : Vec F S100000x128 .f32) (w : Vec F S128x64 .f32) : Vec F S100000x64 .f32 :=
  Host.dotGeneral dot_S100000x128_S128x64_S100000x64_1_0_0_1_n_n none x w

/-- A hidden layer: aggregate(x @ w) + bias row, then max(., 0). -/
def hidden (x : Vec F S100000x128 .f32) (w : Vec F S128x128 .f32) (b : Vec F S1x128 .f32)
    (src tgt : Vec F S1700000 .i32) (nrm : Vec F S1700000 .f32) : Vec F S100000x128 .f32 :=
  relu128 (addf (aggregate128 (dense128 x w) src tgt nrm) (rows128 b))

/-- The last layer: aggregate(x @ w) + bias row. -/
def last (x : Vec F S100000x128 .f32) (w : Vec F S128x64 .f32) (b : Vec F S1x64 .f32)
    (src tgt : Vec F S1700000 .i32) (nrm : Vec F S1700000 .f32) : Vec F S100000x64 .f32 :=
  addf (aggregate64 (dense64 x w) src tgt nrm) (rows64 b)

/-- The three layers over one normalised edge list; the bias rows arrive as [1, d] rows. -/
def network (x : Vec F S100000x128 .f32) (ei : Vec F S2x1600000 .i32) (ew : Vec F S1600000 .f32)
    (w0 : Vec F S128x128 .f32) (b0 : Vec F S1x128 .f32) (w1 : Vec F S128x128 .f32) (b1 : Vec F S1x128 .f32)
    (w2 : Vec F S128x64 .f32) (b2 : Vec F S1x64 .f32) : Vec F S100000x64 .f32 :=
  last (hidden (hidden x w0 b0 (sources ei) (targets ei) (edgeNorm ei ew)) w1 b1 (sources ei) (targets ei) (edgeNorm ei ew))
    w2 b2 (sources ei) (targets ei) (edgeNorm ei ew)

end Cert.Gcn

end
-- ==== Proof.HostEntry.lean ====
/-
  The host operations before the first region, read back at the idealized kernel program: from the edge
  arguments they build the self-looped source and target lists, the self-looped weights, the weighted in-degree
  and its inverse square root (0 where the degree is not positive), and the edges' symmetric normalisation;
  the other arguments are not touched.
-/
import proofs.«104128_j38603166056972_1_alg».proof.Proof.Stages
import proofs.«104128_j38603166056972_1_alg».proof.Proof.Gen.KernelIdeal.Frame
import proofs.«104128_j38603166056972_1_alg».proof.Proof.Gen.ReferenceIdeal
import Idealize.ShloMosaic.Lib.StableHlo.Run

set_option maxHeartbeats 2000000

noncomputable section

namespace Cert.KernelIdeal.Host

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- A buffer none of a stretch's operations writes holds after the stretch what it held before. -/
macro "host_keeps" : tactic => `(tactic| (
  refine StableHlo.after_of_forall_not_mem _ _ (List.forall_iff_forall_mem.mp ?_)
  simp only [hostOps0, hostOps0_1, hostOps0_2, hostOps1, hostOps3, hostOps5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## After the first stretch: the edge lists, the weights, the degree's two readings -/

theorem sources1 (c : Dev nD) :
    (W1 (F := Ideal) m ρ c (Proc.devRef .tc main_v3) : Vec Ideal S1700000 .i32) = Cert.Gcn.sources (m ((c : Thread nD τ).loc main_arg1)) := by
  dsimp only [W1, W0]
  after_results
  rfl

theorem targets1 (c : Dev nD) :
    (W1 (F := Ideal) m ρ c (Proc.devRef .tc main_v6) : Vec Ideal S1700000 .i32) = Cert.Gcn.targets (m ((c : Thread nD τ).loc main_arg1)) := by
  dsimp only [W1, W0]
  after_results
  rfl

theorem weights1 (c : Dev nD) :
    (W1 (F := Ideal) m ρ c (Proc.devRef .tc main_v8) : Vec Ideal S1700000 .f32) = Cert.Gcn.weights (m ((c : Thread nD τ).loc main_arg2)) := by
  dsimp only [W1, W0]
  after_results
  rfl

theorem positive1 (c : Dev nD) :
    (W1 (F := Ideal) m ρ c (Proc.devRef .tc main_v13) : Vec Ideal S100000 .i1)
      = cmpf .ogt (Cert.Gcn.degree (m ((c : Thread nD τ).loc main_arg1)) (m ((c : Thread nD τ).loc main_arg2)))
          (broadcastInDim S100000 ![] Cert.ReferenceIdeal.Facts₀.bcast_S_S100000 (constant Cert.ReferenceIdeal.S_ .f32 0x00000000#32)) := by
  dsimp only [W1, W0]
  after_results
  rfl

theorem rsqrt1 (c : Dev nD) :
    (W1 (F := Ideal) m ρ c (Proc.devRef .tc main_v14) : Vec Ideal S100000 .f32)
      = Host.rsqrt (Cert.Gcn.degree (m ((c : Thread nD τ).loc main_arg1)) (m ((c : Thread nD τ).loc main_arg2))) := by
  dsimp only [W1, W0]
  after_results
  rfl

theorem zero1 (c : Dev nD) :
    (W1 (F := Ideal) m ρ c (Proc.devRef .tc main_cst_2) : Vec Ideal S_ .f32) = constant (F := Ideal) S_ .f32 0x00000000#32 := by
  dsimp only [W1, W0]
  after_results

/-! ## After the select: the inverse square root of the degree -/

theorem invSqrtDegree2 (c : Dev nD) :
    (W2 (F := Ideal) m ρ c (Proc.devRef .tc main_v15) : Vec Ideal S100000 .f32)
      = Cert.Gcn.invSqrtDegree (m ((c : Thread nD τ).loc main_arg1)) (m ((c : Thread nD τ).loc main_arg2)) := by
  have h : (W2 (F := Ideal) m ρ c (Proc.devRef .tc main_v15) : Vec Ideal S100000 .f32)
      = select (W1 (F := Ideal) m ρ c (Proc.devRef .tc main_v13) : Vec Ideal S100000 .i1) (W1 (F := Ideal) m ρ c (Proc.devRef .tc main_v14) : Vec Ideal S100000 .f32)
          (broadcastInDim S100000 ![] Cert.ReferenceIdeal.Facts₀.bcast_S_S100000 (id (W1 (F := Ideal) m ρ c (Proc.devRef .tc main_cst_2) : Vec Ideal S_ .f32))) := by
    show StableHlo.after hostOps0_1 (W1 (F := Ideal) m ρ c) (Proc.devRef .tc main_v15) = _
    generalize W1 (F := Ideal) m ρ c = X
    after_results
    rfl
  rw [h, positive1, rsqrt1, zero1]
  rfl

/-- The edge lists and the weights pass the select untouched. -/
theorem sources2 (c : Dev nD) :
    (W2 (F := Ideal) m ρ c (Proc.devRef .tc main_v3) : Vec Ideal S1700000 .i32) = Cert.Gcn.sources (m ((c : Thread nD τ).loc main_arg1)) :=
  (show StableHlo.after hostOps0_1 (W1 (F := Ideal) m ρ c) (Proc.devRef .tc main_v3) = W1 m ρ c (Proc.devRef .tc main_v3) by host_keeps).trans (sources1 m ρ c)

theorem targets2 (c : Dev nD) :
    (W2 (F := Ideal) m ρ c (Proc.devRef .tc main_v6) : Vec Ideal S1700000 .i32) = Cert.Gcn.targets (m ((c : Thread nD τ).loc main_arg1)) :=
  (show StableHlo.after hostOps0_1 (W1 (F := Ideal) m ρ c) (Proc.devRef .tc main_v6) = W1 m ρ c (Proc.devRef .tc main_v6) by host_keeps).trans (targets1 m ρ c)

theorem weights2 (c : Dev nD) :
    (W2 (F := Ideal) m ρ c (Proc.devRef .tc main_v8) : Vec Ideal S1700000 .f32) = Cert.Gcn.weights (m ((c : Thread nD τ).loc main_arg2)) :=
  (show StableHlo.after hostOps0_1 (W1 (F := Ideal) m ρ c) (Proc.devRef .tc main_v8) = W1 m ρ c (Proc.devRef .tc main_v8) by host_keeps).trans (weights1 m ρ c)

/-! ## At the first region's entry -/

theorem sources3 (c : Dev nD) :
    (W3 (F := Ideal) m ρ c (Proc.devRef .tc main_v3) : Vec Ideal S1700000 .i32) = Cert.Gcn.sources (m ((c : Thread nD τ).loc main_arg1)) :=
  (show StableHlo.after hostOps0_2 (W2 (F := Ideal) m ρ c) (Proc.devRef .tc main_v3) = W2 m ρ c (Proc.devRef .tc main_v3) by host_keeps).trans (sources2 m ρ c)

theorem targets3 (c : Dev nD) :
    (W3 (F := Ideal) m ρ c (Proc.devRef .tc main_v6) : Vec Ideal S1700000 .i32) = Cert.Gcn.targets (m ((c : Thread nD τ).loc main_arg1)) :=
  (show StableHlo.after hostOps0_2 (W2 (F := Ideal) m ρ c) (Proc.devRef .tc main_v6) = W2 m ρ c (Proc.devRef .tc main_v6) by host_keeps).trans (targets2 m ρ c)

/-- The normalisation from its four ingredients: the inverse square root of the degree gathered along the wrapped
    sources and along the wrapped targets, the two multiplied, times the weights. -/
def normOf (dis : Vec Ideal Cert.ReferenceIdeal.S100000 .f32) (src tgt : Vec Ideal Cert.ReferenceIdeal.S1700000 .i32)
    (w : Vec Ideal Cert.ReferenceIdeal.S1700000 .f32) : Vec Ideal Cert.ReferenceIdeal.S1700000 .f32 :=
  mulf (F := Ideal) (φ := .f32) (mulf (F := Ideal) (φ := .f32) (Host.gather Cert.ReferenceIdeal.gather_S100000_S1700000x1_S1700000_n_0_n_n_0_1_1 dis
        (broadcastInDim Cert.ReferenceIdeal.S1700000x1 ![0] Cert.ReferenceIdeal.Facts₀.bcast_S1700000_S1700000x1_0 (Cert.Gcn.wrapped src)))
      (Host.gather Cert.ReferenceIdeal.gather_S100000_S1700000x1_S1700000_n_0_n_n_0_1_1 dis
        (broadcastInDim Cert.ReferenceIdeal.S1700000x1 ![0] Cert.ReferenceIdeal.Facts₀.bcast_S1700000_S1700000x1_0 (Cert.Gcn.wrapped tgt)))) w

/-- The edges' normalisation at the first region's entry. -/
theorem edgeNorm3 (c : Dev nD) :
    (W3 (F := Ideal) m ρ c (Proc.devRef .tc main_v31) : Vec Ideal S1700000 .f32)
      = Cert.Gcn.edgeNorm (m ((c : Thread nD τ).loc main_arg1)) (m ((c : Thread nD τ).loc main_arg2)) := by
  have h : (W3 (F := Ideal) m ρ c (Proc.devRef .tc main_v31) : Vec Ideal S1700000 .f32)
      = normOf (W2 (F := Ideal) m ρ c (Proc.devRef .tc main_v15)) (W2 (F := Ideal) m ρ c (Proc.devRef .tc main_v3))
          (W2 (F := Ideal) m ρ c (Proc.devRef .tc main_v6)) (W2 (F := Ideal) m ρ c (Proc.devRef .tc main_v8)) := by
    show StableHlo.after hostOps0_2 (W2 (F := Ideal) m ρ c) (Proc.devRef .tc main_v31) = _
    generalize W2 (F := Ideal) m ρ c = X
    after_results_simp
    rfl
  rw [h, invSqrtDegree2, sources2, targets2, weights2]
  rfl

/-- An argument no host operation before the first region writes is still the launch contents there. -/
theorem arg_at_entry (b : Ref sig .tc) (c : Dev nD)
    (h0 : StableHlo.after hostOps0 (W0 (F := Ideal) m ρ c) (Proc.devRef .tc b) = W0 m ρ c (Proc.devRef .tc b))
    (h1 : StableHlo.after hostOps0_1 (W1 (F := Ideal) m ρ c) (Proc.devRef .tc b) = W1 m ρ c (Proc.devRef .tc b))
    (h2 : StableHlo.after hostOps0_2 (W2 (F := Ideal) m ρ c) (Proc.devRef .tc b) = W2 m ρ c (Proc.devRef .tc b)) :
    W3 (F := Ideal) m ρ c (Proc.devRef .tc b) = m ((c : Thread nD τ).loc b) :=
  h2.trans (h1.trans h0)

theorem arg0_3 (c : Dev nD) : W3 (F := Ideal) m ρ c (Proc.devRef .tc main_arg0) = m ((c : Thread nD τ).loc main_arg0) :=
  arg_at_entry m ρ main_arg0 c (by host_keeps) (by host_keeps) (by host_keeps)
theorem arg3_3 (c : Dev nD) : W3 (F := Ideal) m ρ c (Proc.devRef .tc main_arg3) = m ((c : Thread nD τ).loc main_arg3) :=
  arg_at_entry m ρ main_arg3 c (by host_keeps) (by host_keeps) (by host_keeps)
theorem arg4_3 (c : Dev nD) : W3 (F := Ideal) m ρ c (Proc.devRef .tc main_arg4) = m ((c : Thread nD τ).loc main_arg4) :=
  arg_at_entry m ρ main_arg4 c (by host_keeps) (by host_keeps) (by host_keeps)
theorem arg5_3 (c : Dev nD) : W3 (F := Ideal) m ρ c (Proc.devRef .tc main_arg5) = m ((c : Thread nD τ).loc main_arg5) :=
  arg_at_entry m ρ main_arg5 c (by host_keeps) (by host_keeps) (by host_keeps)
theorem arg6_3 (c : Dev nD) : W3 (F := Ideal) m ρ c (Proc.devRef .tc main_arg6) = m ((c : Thread nD τ).loc main_arg6) :=
  arg_at_entry m ρ main_arg6 c (by host_keeps) (by host_keeps) (by host_keeps)
theorem arg7_3 (c : Dev nD) : W3 (F := Ideal) m ρ c (Proc.devRef .tc main_arg7) = m ((c : Thread nD τ).loc main_arg7) :=
  arg_at_entry m ρ main_arg7 c (by host_keeps) (by host_keeps) (by host_keeps)
theorem arg8_3 (c : Dev nD) : W3 (F := Ideal) m ρ c (Proc.devRef .tc main_arg8) = m ((c : Thread nD τ).loc main_arg8) :=
  arg_at_entry m ρ main_arg8 c (by host_keeps) (by host_keeps) (by host_keeps)

end Cert.KernelIdeal.Host

end
-- ==== Proof.LibReshapeRow.lean ====
/-
  A vector reshaped to a one-row matrix is the vector broadcast along a new leading axis: jax's `b.reshape(1, d)`
  (a `stablehlo.reshape` [d] → [1, d]) and the row jnp's broadcasting makes of `b` against an [n, d] array
  (a `stablehlo.broadcast_in_dim` with dims = [1]) hold the same entry at every index, for any element type.
-/
import Idealize.ShloMosaic.Lib.Pipeline.Value

namespace Cert.Lib.ReshapeRow

open Idealize.ShloMosaic

/-- `reshape` of a [d] vector to [1, d] and `broadcast_in_dim` with dims = [1] read the same entry at every index. -/
theorem reshape_row_eq_broadcast {α : Type} (d : Nat) (hd : d ≠ 1) (b : (⟨1, ![d]⟩ : Shape).Idx → α)
    (h : (⟨1, ![d]⟩ : Shape).ShapeCasts ⟨2, ![1, d]⟩) (h' : (⟨1, ![d]⟩ : Shape).BroadcastsInDim ⟨2, ![1, d]⟩ (![1] : Fin 1 → Fin 2)) :
    shapeCast (⟨2, ![1, d]⟩ : Shape) b h = broadcastInDim (⟨2, ![1, d]⟩ : Shape) ![1] h' b := by
  funext j
  rw [shapeCast_addUnit_apply (n := 1) ![d] b h j]
  refine (broadcastInDim_apply (s := ⟨1, ![d]⟩) (t := ⟨2, ![1, d]⟩) ![1] h' b j (fun a => j a.succ) (fun a => ?_)).symm
  have ha : a = 0 := Subsingleton.elim _ _
  subst ha
  rw [if_neg (by simpa using hd)]
  rfl

end Cert.Lib.ReshapeRow
-- ==== Proof.HostLayers.lean ====
/-
  The host operations between a matmul region and the bias region after it, read back at the idealized kernel
  program: the rows of the region's result are gathered along the (wrapped) sources, scaled by the edges'
  normalisation and summed at the targets, and the layer's bias vector is reshaped to a [1, d] row — the same row
  jnp's broadcasting makes of it. The edge lists, the normalisation and the later layers' arguments are carried
  unchanged through these operations and through the regions, which write their own output arrays only.
-/
import proofs.«104128_j38603166056972_1_alg».proof.Proof.Stages
import proofs.«104128_j38603166056972_1_alg».proof.Proof.Gen.KernelIdeal.Frame
import proofs.«104128_j38603166056972_1_alg».proof.Proof.Gen.ReferenceIdeal
import proofs.«104128_j38603166056972_1_alg».proof.Proof.HostEntry
import proofs.«104128_j38603166056972_1_alg».proof.Proof.LibReshapeRow
import Idealize.ShloMosaic.Lib.StableHlo.Run
import Idealize.ShloMosaic.Lib.Pipeline.Value
set_option maxHeartbeats 2000000

noncomputable section

namespace Cert.KernelIdeal.Host

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## One layer's host operations -/

theorem aggregated5 (c : Dev nD) :
    (W5 (F := Ideal) m ρ c (Proc.devRef .tc main_v45) : Vec Ideal S100000x128 .f32)
      = Cert.Gcn.aggregate128 (W4 (F := Ideal) m ρ c (Proc.devRef .tc main_v32) : Vec Ideal S100000x128 .f32)
          (W4 (F := Ideal) m ρ c (Proc.devRef .tc main_v3) : Vec Ideal S1700000 .i32) (W4 (F := Ideal) m ρ c (Proc.devRef .tc main_v6) : Vec Ideal S1700000 .i32)
          (W4 (F := Ideal) m ρ c (Proc.devRef .tc main_v31) : Vec Ideal S1700000 .f32) := by
  show StableHlo.after hostOps1 (W4 (F := Ideal) m ρ c) (Proc.devRef .tc main_v45) = _
  generalize W4 (F := Ideal) m ρ c = X
  after_results
  rfl

theorem biasRow5 (c : Dev nD) :
    (W5 (F := Ideal) m ρ c (Proc.devRef .tc main_v46) : Vec Ideal S1x128 .f32)
      = broadcastInDim Cert.ReferenceIdeal.S1x128 ![1] Cert.ReferenceIdeal.Facts₀.bcast_S128_S1x128_1 (W4 (F := Ideal) m ρ c (Proc.devRef .tc main_arg4) : Vec Ideal S128 .f32) := by
  have h : (W5 (F := Ideal) m ρ c (Proc.devRef .tc main_v46) : Vec Ideal S1x128 .f32)
      = shapeCast S1x128 (W4 (F := Ideal) m ρ c (Proc.devRef .tc main_arg4) : Vec Ideal S128 .f32) Cert.KernelIdeal.Facts₀.shapeCasts_S128_S1x128 := by
    show StableHlo.after hostOps1 (W4 (F := Ideal) m ρ c) (Proc.devRef .tc main_v46) = _
    generalize W4 (F := Ideal) m ρ c = X
    after_results
    rfl
  rw [h]
  exact Cert.Lib.ReshapeRow.reshape_row_eq_broadcast 128 (by decide) _ _ _

theorem aggregated8 (c : Dev nD) :
    (W8 (F := Ideal) m ρ c (Proc.devRef .tc main_v61) : Vec Ideal S100000x128 .f32)
      = Cert.Gcn.aggregate128 (W7 (F := Ideal) m ρ c (Proc.devRef .tc main_v48) : Vec Ideal S100000x128 .f32)
          (W7 (F := Ideal) m ρ c (Proc.devRef .tc main_v3) : Vec Ideal S1700000 .i32) (W7 (F := Ideal) m ρ c (Proc.devRef .tc main_v6) : Vec Ideal S1700000 .i32)
          (W7 (F := Ideal) m ρ c (Proc.devRef .tc main_v31) : Vec Ideal S1700000 .f32) := by
  show StableHlo.after hostOps3 (W7 (F := Ideal) m ρ c) (Proc.devRef .tc main_v61) = _
  generalize W7 (F := Ideal) m ρ c = X
  after_results
  rfl

theorem biasRow8 (c : Dev nD) :
    (W8 (F := Ideal) m ρ c (Proc.devRef .tc main_v62) : Vec Ideal S1x128 .f32)
      = broadcastInDim Cert.ReferenceIdeal.S1x128 ![1] Cert.ReferenceIdeal.Facts₀.bcast_S128_S1x128_1 (W7 (F := Ideal) m ρ c (Proc.devRef .tc main_arg6) : Vec Ideal S128 .f32) := by
  have h : (W8 (F := Ideal) m ρ c (Proc.devRef .tc main_v62) : Vec Ideal S1x128 .f32)
      = shapeCast S1x128 (W7 (F := Ideal) m ρ c (Proc.devRef .tc main_arg6) : Vec Ideal S128 .f32) Cert.KernelIdeal.Facts₀.shapeCasts_S128_S1x128 := by
    show StableHlo.after hostOps3 (W7 (F := Ideal) m ρ c) (Proc.devRef .tc main_v62) = _
    generalize W7 (F := Ideal) m ρ c = X
    after_results
    rfl
  rw [h]
  exact Cert.Lib.ReshapeRow.reshape_row_eq_broadcast 128 (by decide) _ _ _

theorem aggregated11 (c : Dev nD) :
    (W11 (F := Ideal) m ρ c (Proc.devRef .tc main_v77) : Vec Ideal S100000x64 .f32)
      = Cert.Gcn.aggregate64 (W10 (F := Ideal) m ρ c (Proc.devRef .tc main_v64) : Vec Ideal S100000x64 .f32)
          (W10 (F := Ideal) m ρ c (Proc.devRef .tc main_v3) : Vec Ideal S1700000 .i32) (W10 (F := Ideal) m ρ c (Proc.devRef .tc main_v6) : Vec Ideal S1700000 .i32)
          (W10 (F := Ideal) m ρ c (Proc.devRef .tc main_v31) : Vec Ideal S1700000 .f32) := by
  show StableHlo.after hostOps5 (W10 (F := Ideal) m ρ c) (Proc.devRef .tc main_v77) = _
  generalize W10 (F := Ideal) m ρ c = X
  after_results
  rfl

theorem biasRow11 (c : Dev nD) :
    (W11 (F := Ideal) m ρ c (Proc.devRef .tc main_v78) : Vec Ideal S1x64 .f32)
      = broadcastInDim Cert.ReferenceIdeal.S1x64 ![1] Cert.ReferenceIdeal.Facts₀.bcast_S64_S1x64_1 (W10 (F := Ideal) m ρ c (Proc.devRef .tc main_arg8) : Vec Ideal S64 .f32) := by
  have h : (W11 (F := Ideal) m ρ c (Proc.devRef .tc main_v78) : Vec Ideal S1x64 .f32)
      = shapeCast S1x64 (W10 (F := Ideal) m ρ c (Proc.devRef .tc main_arg8) : Vec Ideal S64 .f32) Cert.KernelIdeal.Facts₀.shapeCasts_S64_S1x64 := by
    show StableHlo.after hostOps5 (W10 (F := Ideal) m ρ c) (Proc.devRef .tc main_v78) = _
    generalize W10 (F := Ideal) m ρ c = X
    after_results
    rfl
  rw [h]
  exact Cert.Lib.ReshapeRow.reshape_row_eq_broadcast 64 (by decide) _ _ _

/-! ## What is carried: a buffer that is no region's array and that no later host operation writes -/

theorem carried4 (b : Ref sig .tc) (c : Dev nD) (h4 : ∀ w, Pipeline.arrRef spec0 w ≠ b) :
    W4 (F := Ideal) m ρ c (Proc.devRef .tc b) = W3 m ρ c (Proc.devRef .tc b) := W4_of_ne m ρ c b h4

theorem carried6 (b : Ref sig .tc) (c : Dev nD) (h4 : ∀ w, Pipeline.arrRef spec0 w ≠ b)
    (h5 : StableHlo.after hostOps1 (W4 (F := Ideal) m ρ c) (Proc.devRef .tc b) = W4 m ρ c (Proc.devRef .tc b))
    (h6 : ∀ w, Pipeline.arrRef spec1 w ≠ b) :
    W6 (F := Ideal) m ρ c (Proc.devRef .tc b) = W3 m ρ c (Proc.devRef .tc b) :=
  (W6_of_ne m ρ c b h6).trans (h5.trans (carried4 m ρ b c h4))

theorem carried7 (b : Ref sig .tc) (c : Dev nD) (h4 : ∀ w, Pipeline.arrRef spec0 w ≠ b)
    (h5 : StableHlo.after hostOps1 (W4 (F := Ideal) m ρ c) (Proc.devRef .tc b) = W4 m ρ c (Proc.devRef .tc b))
    (h6 : ∀ w, Pipeline.arrRef spec1 w ≠ b) (h7 : ∀ w, Pipeline.arrRef spec2 w ≠ b) :
    W7 (F := Ideal) m ρ c (Proc.devRef .tc b) = W3 m ρ c (Proc.devRef .tc b) :=
  (W7_of_ne m ρ c b h7).trans (carried6 m ρ b c h4 h5 h6)

theorem carried9 (b : Ref sig .tc) (c : Dev nD) (h4 : ∀ w, Pipeline.arrRef spec0 w ≠ b)
    (h5 : StableHlo.after hostOps1 (W4 (F := Ideal) m ρ c) (Proc.devRef .tc b) = W4 m ρ c (Proc.devRef .tc b))
    (h6 : ∀ w, Pipeline.arrRef spec1 w ≠ b) (h7 : ∀ w, Pipeline.arrRef spec2 w ≠ b)
    (h8 : StableHlo.after hostOps3 (W7 (F := Ideal) m ρ c) (Proc.devRef .tc b) = W7 m ρ c (Proc.devRef .tc b))
    (h9 : ∀ w, Pipeline.arrRef spec3 w ≠ b) :
    W9 (F := Ideal) m ρ c (Proc.devRef .tc b) = W3 m ρ c (Proc.devRef .tc b) :=
  (W9_of_ne m ρ c b h9).trans (h8.trans (carried7 m ρ b c h4 h5 h6 h7))

theorem carried10 (b : Ref sig .tc) (c : Dev nD) (h4 : ∀ w, Pipeline.arrRef spec0 w ≠ b)
    (h5 : StableHlo.after hostOps1 (W4 (F := Ideal) m ρ c) (Proc.devRef .tc b) = W4 m ρ c (Proc.devRef .tc b))
    (h6 : ∀ w, Pipeline.arrRef spec1 w ≠ b) (h7 : ∀ w, Pipeline.arrRef spec2 w ≠ b)
    (h8 : StableHlo.after hostOps3 (W7 (F := Ideal) m ρ c) (Proc.devRef .tc b) = W7 m ρ c (Proc.devRef .tc b))
    (h9 : ∀ w, Pipeline.arrRef spec3 w ≠ b) (h10 : ∀ w, Pipeline.arrRef spec4 w ≠ b) :
    W10 (F := Ideal) m ρ c (Proc.devRef .tc b) = W3 m ρ c (Proc.devRef .tc b) :=
  (W10_of_ne m ρ c b h10).trans (carried9 m ρ b c h4 h5 h6 h7 h8 h9)

/-! ### The edge lists and the normalisation at each layer's host operations -/

theorem sources4 (c : Dev nD) : W4 (F := Ideal) m ρ c (Proc.devRef .tc main_v3) = W3 m ρ c (Proc.devRef .tc main_v3) := carried4 m ρ main_v3 c (by decide)
theorem targets4 (c : Dev nD) : W4 (F := Ideal) m ρ c (Proc.devRef .tc main_v6) = W3 m ρ c (Proc.devRef .tc main_v6) := carried4 m ρ main_v6 c (by decide)
theorem edgeNorm4 (c : Dev nD) : W4 (F := Ideal) m ρ c (Proc.devRef .tc main_v31) = W3 m ρ c (Proc.devRef .tc main_v31) := carried4 m ρ main_v31 c (by decide)
theorem bias4 (c : Dev nD) : W4 (F := Ideal) m ρ c (Proc.devRef .tc main_arg4) = W3 m ρ c (Proc.devRef .tc main_arg4) := carried4 m ρ main_arg4 c (by decide)

theorem weight6 (c : Dev nD) : W6 (F := Ideal) m ρ c (Proc.devRef .tc main_arg5) = W3 m ρ c (Proc.devRef .tc main_arg5) :=
  carried6 m ρ main_arg5 c (by decide) (by host_keeps) (by decide)

theorem sources7 (c : Dev nD) : W7 (F := Ideal) m ρ c (Proc.devRef .tc main_v3) = W3 m ρ c (Proc.devRef .tc main_v3) :=
  carried7 m ρ main_v3 c (by decide) (by host_keeps) (by decide) (by decide)
theorem targets7 (c : Dev nD) : W7 (F := Ideal) m ρ c (Proc.devRef .tc main_v6) = W3 m ρ c (Proc.devRef .tc main_v6) :=
  carried7 m ρ main_v6 c (by decide) (by host_keeps) (by decide) (by decide)
theorem edgeNorm7 (c : Dev nD) : W7 (F := Ideal) m ρ c (Proc.devRef .tc main_v31) = W3 m ρ c (Proc.devRef .tc main_v31) :=
  carried7 m ρ main_v31 c (by decide) (by host_keeps) (by decide) (by decide)
theorem bias7 (c : Dev nD) : W7 (F := Ideal) m ρ c (Proc.devRef .tc main_arg6) = W3 m ρ c (Proc.devRef .tc main_arg6) :=
  carried7 m ρ main_arg6 c (by decide) (by host_keeps) (by decide) (by decide)

theorem weight9 (c : Dev nD) : W9 (F := Ideal) m ρ c (Proc.devRef .tc main_arg7) = W3 m ρ c (Proc.devRef .tc main_arg7) :=
  carried9 m ρ main_arg7 c (by decide) (by host_keeps) (by decide) (by decide) (by host_keeps) (by decide)

theorem sources10 (c : Dev nD) : W10 (F := Ideal) m ρ c (Proc.devRef .tc main_v3) = W3 m ρ c (Proc.devRef .tc main_v3) :=
  carried10 m ρ main_v3 c (by decide) (by host_keeps) (by decide) (by decide) (by host_keeps) (by decide) (by decide)
theorem targets10 (c : Dev nD) : W10 (F := Ideal) m ρ c (Proc.devRef .tc main_v6) = W3 m ρ c (Proc.devRef .tc main_v6) :=
  carried10 m ρ main_v6 c (by decide) (by host_keeps) (by decide) (by decide) (by host_keeps) (by decide) (by decide)
theorem edgeNorm10 (c : Dev nD) : W10 (F := Ideal) m ρ c (Proc.devRef .tc main_v31) = W3 m ρ c (Proc.devRef .tc main_v31) :=
  carried10 m ρ main_v31 c (by decide) (by host_keeps) (by decide) (by decide) (by host_keeps) (by decide) (by decide)
theorem bias10 (c : Dev nD) : W10 (F := Ideal) m ρ c (Proc.devRef .tc main_arg8) = W3 m ρ c (Proc.devRef .tc main_arg8) :=
  carried10 m ρ main_arg8 c (by decide) (by host_keeps) (by decide) (by decide) (by host_keeps) (by decide) (by decide)

end Cert.KernelIdeal.Host

end
-- ==== Proof.LibDenseBlock.lean ====
/-
  A dense product x @ w read one block of rows at a time.

  The reference's product over the 100000 nodes, read at node n and feature f, is the sum over k of x[n, k] * w[k, f];
  a matrix unit's product of a block of 5000 rows with the whole weight array, accumulated into zeros, read at row r
  of the block and feature f, is the sum over k of block[r, k] * w[k, f] (the narrowing of the factors is the identity
  at the ideal values). Both sums run over the one contracted axis of their own dimension numbers and are re-indexed
  here to k = 0 … 127. So when the block is rows T * 5000 … T * 5000 + 4999 of x, the unit's product at (r, f) is the
  reference's at (T * 5000 + r, f): `block128` for 128 features, `block64` for 64, and the three payloads that apply
  the unit's product (`pay0`, `pay2`, `pay4`) with it.
-/
import proofs.«104128_j38603166056972_1_alg».proof.Proof.Stages
import proofs.«104128_j38603166056972_1_alg».proof.Proof.Gen.KernelIdeal.Skeleton
import proofs.«104128_j38603166056972_1_alg».proof.Proof.Gen.ReferenceIdeal
import Idealize.ShloMosaic.Lib.ValueIdx
import Idealize.ShloMosaic.Lib.Pipeline.Value
import Idealize.ShloMosaic.PureOps.Ideal.Laws

noncomputable section

namespace Cert.Gcn.DenseBlock

open Idealize.ShloMosaic
open Cert.KernelIdeal Cert.KernelIdeal.Gen

/-! ## Entry (r, k) of a left operand and entry (k, f) of a right operand, from an output index and k -/

/-- (row of `i`, k) in the node array. -/
abbrev nodeRowAt (i0 : Fin 100000) (k : Fin 128) : Cert.ReferenceIdeal.S100000x128.Idx := fun a => match a with
  | ⟨0, _⟩ => i0
  | ⟨1, _⟩ => k
/-- (k, feature) in a 128 x 128 weight array. -/
abbrev weightAt128 (k : Fin 128) (f : Fin 128) : Cert.ReferenceIdeal.S128x128.Idx := fun a => match a with
  | ⟨0, _⟩ => k
  | ⟨1, _⟩ => f
/-- (k, feature) in a 128 x 64 weight array. -/
abbrev weightAt64 (k : Fin 128) (f : Fin 64) : Cert.ReferenceIdeal.S128x64.Idx := fun a => match a with
  | ⟨0, _⟩ => k
  | ⟨1, _⟩ => f
/-- (row, k) in a block of 5000 rows. -/
abbrev blockRowAt (r : Fin 5000) (k : Fin 128) : S5000x128.Idx := fun a => match a with
  | ⟨0, _⟩ => r
  | ⟨1, _⟩ => k

/-! ## Each dimension-number record's operand indices, coordinate by coordinate -/

theorem ref128_lhs0 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem ref128_lhs1 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem ref128_rhs0 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem ref128_rhs1 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

theorem ref64_lhs0 (i : Cert.ReferenceIdeal.S100000x64.Idx) (q : Cert.ReferenceIdeal.dot_S100000x128_S128x64_S100000x64_1_0_0_1_n_n.contr.Idx) : (Cert.ReferenceIdeal.dot_S100000x128_S128x64_S100000x64_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
theorem ref64_lhs1 (i : Cert.ReferenceIdeal.S100000x64.Idx) (q : Cert.ReferenceIdeal.dot_S100000x128_S128x64_S100000x64_1_0_0_1_n_n.contr.Idx) : (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem ref64_rhs0 (i : Cert.ReferenceIdeal.S100000x64.Idx) (q : Cert.ReferenceIdeal.dot_S100000x128_S128x64_S100000x64_1_0_0_1_n_n.contr.Idx) : (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem ref64_rhs1 (i : Cert.ReferenceIdeal.S100000x64.Idx) (q : Cert.ReferenceIdeal.dot_S100000x128_S128x64_S100000x64_1_0_0_1_n_n.contr.Idx) : (Cert.ReferenceIdeal.dot_S100000x128_S128x64_S100000x64_1_0_0_1_n_n.rhsIdx i q 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl

theorem unit128_lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem unit128_lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem unit128_rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem unit128_rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem unit64_lhs0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem unit64_lhs1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem unit64_rhs0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem unit64_rhs1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! ## The reference's product at an index -/

/-- x @ w at (n, f) for 128 features: the sum over k of x[n, k] * w[k, f]. -/
theorem dense128_apply (x : Vec Ideal Cert.ReferenceIdeal.S100000x128 .f32) (w : Vec Ideal Cert.ReferenceIdeal.S128x128 .f32) (i : Cert.ReferenceIdeal.S100000x128.Idx) :
    Cert.Gcn.dense128 (F := Ideal) x w i
      = ∑ k : Fin 128, x (nodeRowAt ⟨(i 0).val, (i 0).isLt⟩ k) * w (weightAt128 k ⟨(i 1).val, (i 1).isLt⟩) := by
  unfold Cert.Gcn.dense128
  simp only [Host.dotGeneral]
  rw [Ideal.dotGeneral_apply]
  rw [← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = nodeRowAt ⟨(i 0).val, (i 0).isLt⟩ k := funext fun a => Fin.ext (by
    match a with
    | ⟨0, _⟩ => exact ref128_lhs0 _ _
    | ⟨1, _⟩ => exact (ref128_lhs1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = weightAt128 k ⟨(i 1).val, (i 1).isLt⟩ := funext fun a => Fin.ext (by
    match a with
    | ⟨0, _⟩ => exact (ref128_rhs0 _ _).trans hk
    | ⟨1, _⟩ => exact ref128_rhs1 _ _)
  rw [el, er]

/-- x @ w at (n, f) for 64 features. -/
theorem dense64_apply (x : Vec Ideal Cert.ReferenceIdeal.S100000x128 .f32) (w : Vec Ideal Cert.ReferenceIdeal.S128x64 .f32) (i : Cert.ReferenceIdeal.S100000x64.Idx) :
    Cert.Gcn.dense64 (F := Ideal) x w i
      = ∑ k : Fin 128, x (nodeRowAt ⟨(i 0).val, (i 0).isLt⟩ k) * w (weightAt64 k ⟨(i 1).val, (i 1).isLt⟩) := by
  unfold Cert.Gcn.dense64
  simp only [Host.dotGeneral]
  rw [Ideal.dotGeneral_apply]
  rw [← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = nodeRowAt ⟨(i 0).val, (i 0).isLt⟩ k := funext fun a => Fin.ext (by
    match a with
    | ⟨0, _⟩ => exact ref64_lhs0 _ _
    | ⟨1, _⟩ => exact (ref64_lhs1 _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = weightAt64 k ⟨(i 1).val, (i 1).isLt⟩ := funext fun a => Fin.ext (by
    match a with
    | ⟨0, _⟩ => exact (ref64_rhs0 _ _).trans hk
    | ⟨1, _⟩ => exact ref64_rhs1 _ _)
  rw [el, er]

/-! ## The matrix unit's product of one block at an index -/

/-- block @ w accumulated into zeros, at (r, f) for 128 features: the sum over k of block[r, k] * w[k, f]. -/
theorem unit128_apply {φ₁ φ₂ : FTy} (x0 : FVec Ideal S5000x128 φ₁) (x1 : FVec Ideal S128x128 φ₂) (i : S5000x128.Idx) :
    FloatOps.matmul dot_S5000x128_S128x128_S5000x128_1_0_0_1_n_n none x0 x1 (constant S5000x128 .f32 0x00000000#32) i
      = ∑ k : Fin 128, x0 (blockRowAt ⟨(i 0).val, (i 0).isLt⟩ k) * x1 (weightAt128 k ⟨(i 1).val, (i 1).isLt⟩) := by
  rw [Ideal.matmul_constant_zero_apply]
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = blockRowAt ⟨(i 0).val, (i 0).isLt⟩ k := funext fun a => Fin.ext (by
    match a with
    | ⟨0, _⟩ => exact unit128_lhs0 _ _
    | ⟨1, _⟩ => exact (unit128_lhs1 _ _).trans hk)
  have er : dot_S5000x128_S128x128_S5000x128_1_0_0_1_n_n.rhsIdx i ((ValueIdx.contrEquiv1 dot_S5000x128_S128x128_S5000x128_1_0_0_1_n_n 128 rfl rfl).symm k) = weightAt128 k ⟨(i 1).val, (i 1).isLt⟩ := funext fun a => Fin.ext (by
    match a with
    | ⟨0, _⟩ => exact (unit128_rhs0 _ _).trans hk
    | ⟨1, _⟩ => exact unit128_rhs1 _ _)
  rw [el, er]

/-- The same for 64 features. -/
theorem unit64_apply {φ₁ φ₂ : FTy} (x0 : FVec Ideal S5000x128 φ₁) (x1 : FVec Ideal S128x64 φ₂) (i : S5000x64.Idx) :
    FloatOps.matmul dot_S5000x128_S128x64_S5000x64_1_0_0_1_n_n none x0 x1 (constant S5000x64 .f32 0x00000000#32) i
      = ∑ k : Fin 128, x0 (blockRowAt ⟨(i 0).val, (i 0).isLt⟩ k) * x1 (weightAt64 k ⟨(i 1).val, (i 1).isLt⟩) := by
  rw [Ideal.matmul_constant_zero_apply]
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx i ((ValueIdx.contrEquiv1 dot_S5000x128_S128x64_S5000x64_1_0_0_1_n_n 128 rfl rfl).symm k) = blockRowAt ⟨(i 0).val, (i 0).isLt⟩ k := funext fun a => Fin.ext (by
    match a with
    | ⟨0, _⟩ => exact unit64_lhs0 _ _
    | ⟨1, _⟩ => exact (unit64_lhs1 _ _).trans hk)
  have er : dot_S5000x128_S128x64_S5000x64_1_0_0_1_n_n.rhsIdx i ((ValueIdx.contrEquiv1 dot_S5000x128_S128x64_S5000x64_1_0_0_1_n_n 128 rfl rfl).symm k) = weightAt64 k ⟨(i 1).val, (i 1).isLt⟩ := funext fun a => Fin.ext (by
    match a with
    | ⟨0, _⟩ => exact (unit64_rhs0 _ _).trans hk
    | ⟨1, _⟩ => exact unit64_rhs1 _ _)
  rw [el, er]

/-- A block is stored and loaded whole: its offsets are all zero. -/
theorem zeroOffsets : (![0, 0] : Fin 2 → Nat) = fun _ => 0 := funext fun a => by fin_cases a <;> rfl

/-! ## The payloads: the unit's product of the loaded block and the loaded weights -/

/-- The first layer's payload at (r, f). -/
theorem pay0_apply (x0 : Vec Ideal S5000x128 .f32) (x1 : Vec Ideal S128x128 .f32) (i : S5000x128.Idx) :
    k0_pay1 (F := Ideal) x0 x1 i
      = ∑ k : Fin 128, x0 (blockRowAt ⟨(i 0).val, (i 0).isLt⟩ k) * x1 (weightAt128 k ⟨(i 1).val, (i 1).isLt⟩) :=
  unit128_apply (φ₁ := .bf16) (φ₂ := .bf16) x0 x1 i

/-- The second layer's payload at (r, f): the cast of the block to its own shape changes nothing. -/
theorem pay2_apply (x0 : Vec Ideal S5000x128 .f32) (x1 : Vec Ideal S128x128 .f32) (i : S5000x128.Idx) :
    k2_pay1 (F := Ideal) x0 x1 i
      = ∑ k : Fin 128, x0 (blockRowAt ⟨(i 0).val, (i 0).isLt⟩ k) * x1 (weightAt128 k ⟨(i 1).val, (i 1).isLt⟩) := by
  unfold k2_pay1
  rw [shapeCast_self]
  exact unit128_apply (φ₁ := .bf16) (φ₂ := .bf16) x0 x1 i

/-- The third layer's payload at (r, f), 64 features. -/
theorem pay4_apply (x0 : Vec Ideal S5000x128 .f32) (x1 : Vec Ideal S128x64 .f32) (i : S5000x64.Idx) :
    k4_pay1 (F := Ideal) x0 x1 i
      = ∑ k : Fin 128, x0 (blockRowAt ⟨(i 0).val, (i 0).isLt⟩ k) * x1 (weightAt64 k ⟨(i 1).val, (i 1).isLt⟩) := by
  unfold k4_pay1
  rw [shapeCast_self]
  exact unit64_apply (φ₁ := .bf16) (φ₂ := .bf16) x0 x1 i

/-! ## A block of rows against the whole array -/

/-- When the block \`x0\` is rows T * 5000 … T * 5000 + 4999 of \`X\` (read through \`e0\`), \`x1\` is all of \`W\` (through \`e1\`) and
    \`e2\` places (r, f) at (T * 5000 + r, f), the block's sum at (r, f) is x @ w at \`e2\` (r, f): 128 features. -/
theorem block128 (X : Vec Ideal Cert.ReferenceIdeal.S100000x128 .f32) (W : Vec Ideal Cert.ReferenceIdeal.S128x128 .f32)
    (x0 : Vec Ideal S5000x128 .f32) (x1 : Vec Ideal S128x128 .f32)
    (e0 : S5000x128.Idx → Cert.ReferenceIdeal.S100000x128.Idx) (e1 : S128x128.Idx → Cert.ReferenceIdeal.S128x128.Idx) (e2 : S5000x128.Idx → Cert.ReferenceIdeal.S100000x128.Idx)
    (h0 : ∀ y, x0 y = X (e0 y)) (h1 : ∀ y, x1 y = W (e1 y)) (T : Nat)
    (c00 : ∀ y, (e0 y 0).val = T * 5000 + (y 0).val) (c01 : ∀ y, (e0 y 1).val = (y 1).val)
    (c10 : ∀ y, (e1 y 0).val = (y 0).val) (c11 : ∀ y, (e1 y 1).val = (y 1).val)
    (c20 : ∀ y, (e2 y 0).val = T * 5000 + (y 0).val) (c21 : ∀ y, (e2 y 1).val = (y 1).val) (j : S5000x128.Idx) :
    (∑ k : Fin 128, x0 (blockRowAt ⟨(j 0).val, (j 0).isLt⟩ k) * x1 (weightAt128 k ⟨(j 1).val, (j 1).isLt⟩))
      = Cert.Gcn.dense128 (F := Ideal) X W (e2 j) := by
  rw [dense128_apply]
  refine Finset.sum_congr rfl fun k _ => ?_
  rw [h0, h1]
  have ea : e0 (blockRowAt ⟨(j 0).val, (j 0).isLt⟩ k) = nodeRowAt ⟨(e2 j 0).val, (e2 j 0).isLt⟩ k := funext fun a => Fin.ext (by
    match a with
    | ⟨0, _⟩ => exact (c00 _).trans (c20 j).symm
    | ⟨1, _⟩ => exact c01 _)
  have eb : e1 (weightAt128 k ⟨(j 1).val, (j 1).isLt⟩) = weightAt128 k ⟨(e2 j 1).val, (e2 j 1).isLt⟩ := funext fun a => Fin.ext (by
    match a with
    | ⟨0, _⟩ => exact c10 _
    | ⟨1, _⟩ => exact (c11 _).trans (c21 j).symm)
  rw [ea, eb]

/-- The same for 64 features. -/
theorem block64 (X : Vec Ideal Cert.ReferenceIdeal.S100000x128 .f32) (W : Vec Ideal Cert.ReferenceIdeal.S128x64 .f32)
    (x0 : Vec Ideal S5000x128 .f32) (x1 : Vec Ideal S128x64 .f32)
    (e0 : S5000x128.Idx → Cert.ReferenceIdeal.S100000x128.Idx) (e1 : S128x64.Idx → Cert.ReferenceIdeal.S128x64.Idx) (e2 : S5000x64.Idx → Cert.ReferenceIdeal.S100000x64.Idx)
    (h0 : ∀ y, x0 y = X (e0 y)) (h1 : ∀ y, x1 y = W (e1 y)) (T : Nat)
    (c00 : ∀ y, (e0 y 0).val = T * 5000 + (y 0).val) (c01 : ∀ y, (e0 y 1).val = (y 1).val)
    (c10 : ∀ y, (e1 y 0).val = (y 0).val) (c11 : ∀ y, (e1 y 1).val = (y 1).val)
    (c20 : ∀ y, (e2 y 0).val = T * 5000 + (y 0).val) (c21 : ∀ y, (e2 y 1).val = (y 1).val) (j : S5000x64.Idx) :
    (∑ k : Fin 128, x0 (blockRowAt ⟨(j 0).val, (j 0).isLt⟩ k) * x1 (weightAt64 k ⟨(j 1).val, (j 1).isLt⟩))
      = Cert.Gcn.dense64 (F := Ideal) X W (e2 j) := by
  rw [dense64_apply]
  refine Finset.sum_congr rfl fun k _ => ?_
  rw [h0, h1]
  have ea : e0 (blockRowAt ⟨(j 0).val, (j 0).isLt⟩ k) = nodeRowAt ⟨(e2 j 0).val, (e2 j 0).isLt⟩ k := funext fun a => Fin.ext (by
    match a with
    | ⟨0, _⟩ => exact (c00 _).trans (c20 j).symm
    | ⟨1, _⟩ => exact c01 _)
  have eb : e1 (weightAt64 k ⟨(j 1).val, (j 1).isLt⟩) = weightAt64 k ⟨(e2 j 1).val, (e2 j 1).isLt⟩ := funext fun a => Fin.ext (by
    match a with
    | ⟨0, _⟩ => exact c10 _
    | ⟨1, _⟩ => exact (c11 _).trans (c21 j).symm)
  rw [ea, eb]

end Cert.Gcn.DenseBlock

end
-- ==== Proof.DenseRegion0.lean ====
/-
  Region 0: the matrix product of one layer, block by block.

  The region's grid has 20 points; point t reads rows 5000 t … 5000 t + 4999 of the node array (all 128 columns) and the
  whole weight array, and writes back rows 5000 t … of the output (all 128 columns). What a point writes back is the
  matrix unit's product of its two blocks, which is the reference's product x @ w read through the output block; the 20
  output blocks cover the array, so the array ends holding x @ w.
-/
import proofs.«104128_j38603166056972_1_alg».proof.Proof.Stages
import proofs.«104128_j38603166056972_1_alg».proof.Proof.Gen.KernelIdeal.Frame
import proofs.«104128_j38603166056972_1_alg».proof.Proof.Gen.ReferenceIdeal
import proofs.«104128_j38603166056972_1_alg».proof.Proof.LibDenseBlock
import Idealize.ShloMosaic.Lib.ValueIdx
import Idealize.ShloMosaic.Lib.Pipeline.Value
import Idealize.ShloMosaic.PureOps.Ideal.Laws
import Idealize.ShloMosaic.Lib.ValueLayout
noncomputable section
namespace Cert.KernelIdeal.Regions
open Idealize.ShloMosaic Idealize.ShloMosaic.TcCoe Idealize.SL.Sem
open Cert.KernelIdeal Cert.KernelIdeal.Gen
variable (V : (c : Dev nD) → (b : Ref sig .tc) → Buf (Elt Ideal) ((c : Thread nD τ).loc b))

/-- The three windows' block indices at a point, decided over the grid: the node rows and the output rows move together,
    one block per point; every other block index is 0. -/
theorem blockIndices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every one of the 20 row blocks is some point's. -/
theorem blockOnto0 : ∀ q : Fin 20, ∃ t : Fin cfg0.N, win0_2.index t = ![q.val, 0] :=
  (by decide +kernel : ∀ q : Fin 20, ∃ t : Fin grid0.N, win0_2.index t = ![q.val, 0])

/-- What point `t` writes back is block `t` of x @ w, x and w the two arrays the region reads as it finds them. -/
theorem flushed0_eq (c : Dev nD) (t : Fin cfg0.N) :
    (dat0 (F := Ideal) V c).flushed 2 t
      = ((cfg0.win 2).blk t).view.read (Elt Ideal) (Cert.Gcn.dense128 (V c main_arg0) (V c main_arg3)) := by
  show (cfg0.win 2).cut (grid0.coords t) ((dat0 V c).after 2 t) = _
  rw [after0_2]
  unfold out0_2
  rw [View.canon_unit_zero Cert.Gcn.DenseBlock.zeroOffsets]
  simp only [View.ld_unit_zero (S := S5000x128) Cert.Gcn.DenseBlock.zeroOffsets, View.ld_unit_zero (S := S128x128) Cert.Gcn.DenseBlock.zeroOffsets]
  obtain ⟨f00, f01, f10, f11, f20, f21⟩ := blockIndices0 t
  funext j
  show k0_pay1 (iblk0 V c 0 t) (iblk0 V c 1 t) j
    = Cert.Gcn.dense128 (V c main_arg0) (V c main_arg3) (((cfg0.win 2).blk t).view.emb j)
  refine (Cert.Gcn.DenseBlock.pay0_apply _ _ j).trans ?_
  refine Cert.Gcn.DenseBlock.block128 (V c main_arg0) (V c main_arg3) (iblk0 V c 0 t) (iblk0 V c 1 t)
    ((cfg0.win 0).blk t).view.emb ((cfg0.win 1).blk t).view.emb ((cfg0.win 2).blk t).view.emb
    (fun y => rfl) (fun y => rfl) t.val ?_ ?_ ?_ ?_ ?_ ?_ j
  · intro y
    show win0_0.index t (0 : Fin 2) * 5000 + 1 * (y 0).val = t.val * 5000 + (y 0).val
    omega
  · intro y
    show win0_0.index t (1 : Fin 2) * 128 + 1 * (y 1).val = (y 1).val
    omega
  · intro y
    show win0_1.index t (0 : Fin 2) * 128 + 1 * (y 0).val = (y 0).val
    omega
  · intro y
    show win0_1.index t (1 : Fin 2) * 128 + 1 * (y 1).val = (y 1).val
    omega
  · intro y
    show win0_2.index t (0 : Fin 2) * 5000 + 1 * (y 0).val = t.val * 5000 + (y 0).val
    omega
  · intro y
    show win0_2.index t (1 : Fin 2) * 128 + 1 * (y 1).val = (y 1).val
    omega

/-- An index of the output array is in point `t`'s block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every index of the output array lies in the block of the point its row belongs to: row r in block r / 5000. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := blockOnto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The region leaves x @ w in its output array. -/
theorem dense0 (c : Dev nD) :
    (dat0 (F := Ideal) V c).arrAt 2 cfg0.N = Cert.Gcn.dense128 (V c main_arg0) (V c main_arg3) :=
  (dat0 (F := Ideal) V c).arrAt_eq_of_cover 2 (Cert.Gcn.dense128 (V c main_arg0) (V c main_arg3))
    (fun t _ => flushed0_eq V c t) (covered0)

end Cert.KernelIdeal.Regions

end
-- ==== Proof.BiasRegion1.lean ====
import proofs.«104128_j38603166056972_1_alg».proof.Proof.Stages
import proofs.«104128_j38603166056972_1_alg».proof.Proof.Gen.KernelIdeal.Frame
import proofs.«104128_j38603166056972_1_alg».proof.Proof.Gen.ReferenceIdeal
import Idealize.ShloMosaic.Lib.ValueIdx
import Idealize.ShloMosaic.Lib.Pipeline.Value
import Idealize.ShloMosaic.PureOps.Ideal.Laws
import Idealize.ShloMosaic.Lib.ValueLayout
import Idealize.ShloMosaic.Lib.KernelVsHost

noncomputable section

namespace Cert.KernelIdeal.Regions

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-! # Region 1: the first layer's bias row and max(., 0)

Every one of the 20 grid points reads 5000 rows of the aggregated array and the whole [1, 128] bias row, and writes
max(aggregated + bias, 0) to the same 5000 rows of its output. The blocks tile the 100000 rows, so the output array
ends holding max(aggregated + bias row repeated over the nodes, 0). -/

/-- The zero offsets of a whole-buffer access, as the constant function. -/
theorem offsets_zero1 : (![0, 0] : Fin 2 → Nat) = fun _ => 0 := funext fun a => by fin_cases a <;> rfl

/-- max(a + bias row repeated over the nodes, 0) read at node `r`, feature `q`: the bias row is read at (0, q), and
    the zero is the scalar with the all-zero word, never evaluated. -/
theorem biasRelu128_at (a : Vec Ideal Cert.ReferenceIdeal.S100000x128 .f32) (b : Vec Ideal Cert.ReferenceIdeal.S1x128 .f32)
    (r : Fin 100000) (q : Fin 128) :
    Cert.Gcn.relu128 (addf a (Cert.Gcn.rows128 b)) (ValueIdx.ix2 r q)
      = max (a (ValueIdx.ix2 r q) + b (ValueIdx.ix2 (0 : Fin 1) q)) (Scalar.ofBits (F := Ideal) .f32 0x00000000#32) := by
  unfold Cert.Gcn.relu128 Cert.Gcn.rows128
  rw [ValueIdx.maximumf_apply, ValueIdx.addf_apply, broadcastInDim_oneRow_apply, broadcastInDim_constant,
    ValueIdx.broadcast_apply]

/-- The body's payload read at row `p`, feature `q` of the block: the same-shape casts are identities, the bias row
    is read at (0, q), the rest is pointwise. -/
theorem payload1_at (x0 : Vec Ideal S5000x128 .f32) (x1 : Vec Ideal S1x128 .f32) (p : Fin 5000) (q : Fin 128) :
    k1_pay1 x0 x1 (ValueIdx.ix2 p q)
      = max (x0 (ValueIdx.ix2 p q) + x1 (ValueIdx.ix2 (0 : Fin 1) q)) (Scalar.ofBits (F := Ideal) .f32 0x00000000#32) := by
  simp only [k1_pay1]
  rw [ValueIdx.maximumf_apply, ValueIdx.addf_apply, shapeCast_self, shapeCast_self, ValueIdx.broadcastTo_1b_ab_apply,
    ValueIdx.broadcast_apply]

/-- The printed index maps, decided once over the 20 grid points: the aggregated window and the output window sit at
    row block `t`, column block 0; the bias window at block (0, 0). -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Block `t` of the aggregated array at `x` is the array at row 5000 t + x's row, x's feature. -/
theorem aggregated1_block_apply (c : Dev nD) (t : Fin cfg1.N) (x : S5000x128.Idx) (k : S100000x128.Idx)
    (hk0 : (k 0).val = 5000 * t.val + (x 0).val) (hk1 : (k 1).val = (x 1).val) :
    (iblk1 V c 0 t : Vec Ideal S5000x128 .f32) x = (V c main_v45 : S100000x128.Idx → Elt Ideal .f32) k := by
  obtain ⟨e0, e1, -⟩ := blockIndex1 t
  unfold iblk1
  rw [View.read_apply]
  show V c main_v45 _ = V c main_v45 _
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 128 + 1 * (x 1).val = (k 1).val; rw [e1, hk1]; omega

/-- The bias window's block is the whole [1, 128] row at every point. -/
theorem bias1_block_apply (c : Dev nD) (t : Fin cfg1.N) (x : S1x128.Idx) :
    (iblk1 V c 1 t : Vec Ideal S1x128 .f32) x = (V c main_v46 : S1x128.Idx → Elt Ideal .f32) x := by
  obtain ⟨-, -, e0, e1, -⟩ := blockIndex1 t
  unfold iblk1
  rw [View.read_apply]
  show V c main_v46 _ = V c main_v46 _
  congr 1
  funext a
  apply Fin.ext
  match a with
  | ⟨0, _⟩ => show win1_1.index t (0 : Fin 2) * 1 + 1 * (x 0).val = (x 0).val; rw [e0]; omega
  | ⟨1, _⟩ => show win1_1.index t (1 : Fin 2) * 128 + 1 * (x 1).val = (x 1).val; rw [e1]; omega

/-- ONE ELEMENT: if the loaded aggregated block at (p, q) is the array `a` at `i`, whose feature is `q`, and the
    loaded bias row is `b`'s, then the payload at (p, q) is max(a + bias row over the nodes, 0) at `i`. -/
theorem point1 (a : Vec Ideal S100000x128 .f32) (b : Vec Ideal S1x128 .f32)
    (x0 : Vec Ideal S5000x128 .f32) (x1 : Vec Ideal S1x128 .f32) (p : Fin 5000) (q : Fin 128) (i : S100000x128.Idx)
    (hi1 : (i 1).val = q.val) (h0 : x0 (ValueIdx.ix2 p q) = a i)
    (h1 : x1 (ValueIdx.ix2 (0 : Fin 1) q) = b (ValueIdx.ix2 (0 : Fin 1) q)) :
    k1_pay1 x0 x1 (ValueIdx.ix2 p q) = Cert.Gcn.relu128 (addf a (Cert.Gcn.rows128 b)) i := by
  obtain ⟨r, q', rfl⟩ : ∃ (r : Fin 100000) (q' : Fin 128), i = ValueIdx.ix2 r q' := ⟨i 0, i 1, ValueIdx.eq_ix2 i⟩
  obtain rfl : q' = q := Fin.ext hi1
  rw [payload1_at, biasRelu128_at, h0, h1]

/-- WHAT POINT `t` WRITES BACK is block `t` of max(aggregated + bias row over the nodes, 0). -/
theorem flushed1_eq (c : Dev nD) (t : Fin cfg1.N) :
    (dat1 (F := Ideal) V c).flushed 2 t
      = ((cfg1.win 2).blk t).view.read (Elt Ideal)
          (Cert.Gcn.relu128 (addf (V c main_v45) (Cert.Gcn.rows128 (V c main_v46)))) := by
  show (cfg1.win 2).cut (grid1.coords t) ((dat1 V c).after 2 t) = _
  rw [after1_2]
  unfold out1_2
  rw [View.canon_unit_zero offsets_zero1]
  simp only [View.ld_unit_zero (S := S5000x128) offsets_zero1, View.ld_unit_zero (S := S1x128) offsets_zero1]
  obtain ⟨-, -, -, -, e0, e1⟩ := blockIndex1 t
  funext j
  rw [View.read_apply]
  obtain ⟨p, q, rfl⟩ : ∃ (p : Fin 5000) (q : Fin 128), j = ValueIdx.ix2 p q := ⟨j 0, j 1, ValueIdx.eq_ix2 j⟩
  refine point1 _ _ _ _ p q _ ?_ ?_ ?_
  · show win1_2.index t (1 : Fin 2) * 128 + 1 * q.val = q.val
    rw [e1]; omega
  · refine aggregated1_block_apply V c t (ValueIdx.ix2 p q) _ ?_ ?_
    · show win1_2.index t (0 : Fin 2) * 5000 + 1 * p.val = 5000 * t.val + p.val
      rw [e0]; omega
    · show win1_2.index t (1 : Fin 2) * 128 + 1 * q.val = q.val
      rw [e1]; omega
  · exact bias1_block_apply V c t _

/-- An index of the output array is in point `t`'s block iff each coordinate is in the block's range on its axis. -/
theorem mem_block1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v47).slice (win1_2.rect t)).set ↔ _
  rw [View.set_slice_whole, Rect.mem_set_unit]
  exact Iff.rfl

/-- THE BLOCKS TILE THE ARRAY: node row `r` lies in the block of point `r / 5000`, which writes back. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, e0, e1⟩ := blockIndex1 t
  refine ⟨t, flush1_2 t, ?_⟩
  rw [mem_block1]
  intro a
  match a with
  | ⟨0, _⟩ =>
    show win1_2.index t (0 : Fin 2) * 5000 ≤ (i 0).val ∧ (i 0).val < win1_2.index t (0 : Fin 2) * 5000 + 5000
    rw [e0, ht]; omega
  | ⟨1, _⟩ =>
    show win1_2.index t (1 : Fin 2) * 128 ≤ (i 1).val ∧ (i 1).val < win1_2.index t (1 : Fin 2) * 128 + 128
    rw [e1]; omega

/-- THE OUTPUT ARRAY after the region: max(aggregated + bias row repeated over the nodes, 0). -/
theorem bias1 (c : Dev nD) :
    (dat1 (F := Ideal) V c).arrAt 2 cfg1.N
      = Cert.Gcn.relu128 (addf (V c main_v45) (Cert.Gcn.rows128 (V c main_v46))) :=
  (dat1 V c).arrAt_eq_of_cover 2 _ (fun t _ => flushed1_eq V c t) (fun i => cover1 i)

end Cert.KernelIdeal.Regions

end
-- ==== Proof.DenseRegion2.lean ====
/-
  Region 2: the matrix product of one layer, block by block.

  The region's grid has 20 points; point t reads rows 5000 t … 5000 t + 4999 of the node array (all 128 columns) and the
  whole weight array, and writes back rows 5000 t … of the output (all 128 columns). What a point writes back is the
  matrix unit's product of its two blocks, which is the reference's product x @ w read through the output block; the 20
  output blocks cover the array, so the array ends holding x @ w.
-/
import proofs.«104128_j38603166056972_1_alg».proof.Proof.Stages
import proofs.«104128_j38603166056972_1_alg».proof.Proof.Gen.KernelIdeal.Frame
import proofs.«104128_j38603166056972_1_alg».proof.Proof.Gen.ReferenceIdeal
import proofs.«104128_j38603166056972_1_alg».proof.Proof.LibDenseBlock
import Idealize.ShloMosaic.Lib.ValueIdx
import Idealize.ShloMosaic.Lib.Pipeline.Value
import Idealize.ShloMosaic.PureOps.Ideal.Laws
import Idealize.ShloMosaic.Lib.ValueLayout
noncomputable section
namespace Cert.KernelIdeal.Regions
open Idealize.ShloMosaic Idealize.ShloMosaic.TcCoe Idealize.SL.Sem
open Cert.KernelIdeal Cert.KernelIdeal.Gen
variable (V : (c : Dev nD) → (b : Ref sig .tc) → Buf (Elt Ideal) ((c : Thread nD τ).loc b))

/-- The three windows' block indices at a point, decided over the grid: the node rows and the output rows move together,
    one block per point; every other block index is 0. -/
theorem blockIndices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every one of the 20 row blocks is some point's. -/
theorem blockOnto2 : ∀ q : Fin 20, ∃ t : Fin cfg2.N, win2_2.index t = ![q.val, 0] :=
  (by decide +kernel : ∀ q : Fin 20, ∃ t : Fin grid2.N, win2_2.index t = ![q.val, 0])

/-- What point `t` writes back is block `t` of x @ w, x and w the two arrays the region reads as it finds them. -/
theorem flushed2_eq (c : Dev nD) (t : Fin cfg2.N) :
    (dat2 (F := Ideal) V c).flushed 2 t
      = ((cfg2.win 2).blk t).view.read (Elt Ideal) (Cert.Gcn.dense128 (V c main_v47) (V c main_arg5)) := by
  show (cfg2.win 2).cut (grid2.coords t) ((dat2 V c).after 2 t) = _
  rw [after2_2]
  unfold out2_2
  rw [View.canon_unit_zero Cert.Gcn.DenseBlock.zeroOffsets]
  simp only [View.ld_unit_zero (S := S5000x128) Cert.Gcn.DenseBlock.zeroOffsets, View.ld_unit_zero (S := S128x128) Cert.Gcn.DenseBlock.zeroOffsets]
  obtain ⟨f00, f01, f10, f11, f20, f21⟩ := blockIndices2 t
  funext j
  show k2_pay1 (iblk2 V c 0 t) (iblk2 V c 1 t) j
    = Cert.Gcn.dense128 (V c main_v47) (V c main_arg5) (((cfg2.win 2).blk t).view.emb j)
  refine (Cert.Gcn.DenseBlock.pay2_apply _ _ j).trans ?_
  refine Cert.Gcn.DenseBlock.block128 (V c main_v47) (V c main_arg5) (iblk2 V c 0 t) (iblk2 V c 1 t)
    ((cfg2.win 0).blk t).view.emb ((cfg2.win 1).blk t).view.emb ((cfg2.win 2).blk t).view.emb
    (fun y => rfl) (fun y => rfl) t.val ?_ ?_ ?_ ?_ ?_ ?_ j
  · intro y
    show win2_0.index t (0 : Fin 2) * 5000 + 1 * (y 0).val = t.val * 5000 + (y 0).val
    omega
  · intro y
    show win2_0.index t (1 : Fin 2) * 128 + 1 * (y 1).val = (y 1).val
    omega
  · intro y
    show win2_1.index t (0 : Fin 2) * 128 + 1 * (y 0).val = (y 0).val
    omega
  · intro y
    show win2_1.index t (1 : Fin 2) * 128 + 1 * (y 1).val = (y 1).val
    omega
  · intro y
    show win2_2.index t (0 : Fin 2) * 5000 + 1 * (y 0).val = t.val * 5000 + (y 0).val
    omega
  · intro y
    show win2_2.index t (1 : Fin 2) * 128 + 1 * (y 1).val = (y 1).val
    omega

/-- An index of the output array is in point `t`'s block iff each coordinate is in the block's range on its axis. -/
theorem mem_block2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- Every index of the output array lies in the block of the point its row belongs to: row r in block r / 5000. -/
theorem covered2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := blockOnto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The region leaves x @ w in its output array. -/
theorem dense2 (c : Dev nD) :
    (dat2 (F := Ideal) V c).arrAt 2 cfg2.N = Cert.Gcn.dense128 (V c main_v47) (V c main_arg5) :=
  (dat2 (F := Ideal) V c).arrAt_eq_of_cover 2 (Cert.Gcn.dense128 (V c main_v47) (V c main_arg5))
    (fun t _ => flushed2_eq V c t) (covered2)

end Cert.KernelIdeal.Regions

end
-- ==== Proof.BiasRegion3.lean ====
import proofs.«104128_j38603166056972_1_alg».proof.Proof.Stages
import proofs.«104128_j38603166056972_1_alg».proof.Proof.Gen.KernelIdeal.Frame
import proofs.«104128_j38603166056972_1_alg».proof.Proof.Gen.ReferenceIdeal
import Idealize.ShloMosaic.Lib.ValueIdx
import Idealize.ShloMosaic.Lib.Pipeline.Value
import Idealize.ShloMosaic.PureOps.Ideal.Laws
import Idealize.ShloMosaic.Lib.ValueLayout
import Idealize.ShloMosaic.Lib.KernelVsHost

noncomputable section

namespace Cert.KernelIdeal.Regions

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-! # Region 3: the second layer's bias row and max(., 0)

Every one of the 20 grid points reads 5000 rows of the aggregated array and the whole [1, 128] bias row, and writes
max(aggregated + bias, 0) to the same 5000 rows of its output. The blocks tile the 100000 rows, so the output array
ends holding max(aggregated + bias row repeated over the nodes, 0). -/

/-- The zero offsets of a whole-buffer access, as the constant function. -/
theorem offsets_zero3 : (![0, 0] : Fin 2 → Nat) = fun _ => 0 := funext fun a => by fin_cases a <;> rfl

/-- max(a + bias row repeated over the nodes, 0) read at node `r`, feature `q`: the bias row is read at (0, q), and
    the zero is the scalar with the all-zero word, never evaluated. -/
theorem biasRelu128_at3 (a : Vec Ideal Cert.ReferenceIdeal.S100000x128 .f32) (b : Vec Ideal Cert.ReferenceIdeal.S1x128 .f32)
    (r : Fin 100000) (q : Fin 128) :
    Cert.Gcn.relu128 (addf a (Cert.Gcn.rows128 b)) (ValueIdx.ix2 r q)
      = max (a (ValueIdx.ix2 r q) + b (ValueIdx.ix2 (0 : Fin 1) q)) (Scalar.ofBits (F := Ideal) .f32 0x00000000#32) := by
  unfold Cert.Gcn.relu128 Cert.Gcn.rows128
  rw [ValueIdx.maximumf_apply, ValueIdx.addf_apply, broadcastInDim_oneRow_apply, broadcastInDim_constant,
    ValueIdx.broadcast_apply]

/-- The body's payload read at row `p`, feature `q` of the block: the same-shape casts are identities, the bias row
    is read at (0, q), the rest is pointwise. -/
theorem payload3_at (x0 : Vec Ideal S5000x128 .f32) (x1 : Vec Ideal S1x128 .f32) (p : Fin 5000) (q : Fin 128) :
    k3_pay1 x0 x1 (ValueIdx.ix2 p q)
      = max (x0 (ValueIdx.ix2 p q) + x1 (ValueIdx.ix2 (0 : Fin 1) q)) (Scalar.ofBits (F := Ideal) .f32 0x00000000#32) := by
  simp only [k3_pay1]
  rw [ValueIdx.maximumf_apply, ValueIdx.addf_apply, shapeCast_self, shapeCast_self, ValueIdx.broadcastTo_1b_ab_apply,
    ValueIdx.broadcast_apply]

/-- The printed index maps, decided once over the 20 grid points: the aggregated window and the output window sit at
    row block `t`, column block 0; the bias window at block (0, 0). -/
theorem blockIndex3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Block `t` of the aggregated array at `x` is the array at row 5000 t + x's row, x's feature. -/
theorem aggregated3_block_apply (c : Dev nD) (t : Fin cfg3.N) (x : S5000x128.Idx) (k : S100000x128.Idx)
    (hk0 : (k 0).val = 5000 * t.val + (x 0).val) (hk1 : (k 1).val = (x 1).val) :
    (iblk3 V c 0 t : Vec Ideal S5000x128 .f32) x = (V c main_v61 : S100000x128.Idx → Elt Ideal .f32) k := by
  obtain ⟨e0, e1, -⟩ := blockIndex3 t
  unfold iblk3
  rw [View.read_apply]
  show V c main_v61 _ = V c main_v61 _
  congr 1
  funext a
  apply Fin.ext
  match a with
  | ⟨0, _⟩ => show win3_0.index t (0 : Fin 2) * 5000 + 1 * (x 0).val = (k 0).val; rw [e0, hk0]; omega
  | ⟨1, _⟩ => show win3_0.index t (1 : Fin 2) * 128 + 1 * (x 1).val = (k 1).val; rw [e1, hk1]; omega

/-- The bias window's block is the whole [1, 128] row at every point. -/
theorem bias3_block_apply (c : Dev nD) (t : Fin cfg3.N) (x : S1x128.Idx) :
    (iblk3 V c 1 t : Vec Ideal S1x128 .f32) x = (V c main_v62 : S1x128.Idx → Elt Ideal .f32) x := by
  obtain ⟨-, -, e0, e1, -⟩ := blockIndex3 t
  unfold iblk3
  rw [View.read_apply]
  show V c main_v62 _ = V c main_v62 _
  congr 1
  funext a
  apply Fin.ext
  match a with
  | ⟨0, _⟩ => show win3_1.index t (0 : Fin 2) * 1 + 1 * (x 0).val = (x 0).val; rw [e0]; omega
  | ⟨1, _⟩ => show win3_1.index t (1 : Fin 2) * 128 + 1 * (x 1).val = (x 1).val; rw [e1]; omega

/-- ONE ELEMENT: if the loaded aggregated block at (p, q) is the array `a` at `i`, whose feature is `q`, and the
    loaded bias row is `b`'s, then the payload at (p, q) is max(a + bias row over the nodes, 0) at `i`. -/
theorem point3 (a : Vec Ideal S100000x128 .f32) (b : Vec Ideal S1x128 .f32)
    (x0 : Vec Ideal S5000x128 .f32) (x1 : Vec Ideal S1x128 .f32) (p : Fin 5000) (q : Fin 128) (i : S100000x128.Idx)
    (hi1 : (i 1).val = q.val) (h0 : x0 (ValueIdx.ix2 p q) = a i)
    (h1 : x1 (ValueIdx.ix2 (0 : Fin 1) q) = b (ValueIdx.ix2 (0 : Fin 1) q)) :
    k3_pay1 x0 x1 (ValueIdx.ix2 p q) = Cert.Gcn.relu128 (addf a (Cert.Gcn.rows128 b)) i := by
  obtain ⟨r, q', rfl⟩ : ∃ (r : Fin 100000) (q' : Fin 128), i = ValueIdx.ix2 r q' := ⟨i 0, i 1, ValueIdx.eq_ix2 i⟩
  obtain rfl : q' = q := Fin.ext hi1
  rw [payload3_at, biasRelu128_at3, h0, h1]

/-- WHAT POINT `t` WRITES BACK is block `t` of max(aggregated + bias row over the nodes, 0). -/
theorem flushed3_eq (c : Dev nD) (t : Fin cfg3.N) :
    (dat3 (F := Ideal) V c).flushed 2 t
      = ((cfg3.win 2).blk t).view.read (Elt Ideal)
          (Cert.Gcn.relu128 (addf (V c main_v61) (Cert.Gcn.rows128 (V c main_v62)))) := by
  show (cfg3.win 2).cut (grid3.coords t) ((dat3 V c).after 2 t) = _
  rw [after3_2]
  unfold out3_2
  rw [View.canon_unit_zero offsets_zero3]
  simp only [View.ld_unit_zero (S := S5000x128) offsets_zero3, View.ld_unit_zero (S := S1x128) offsets_zero3]
  obtain ⟨-, -, -, -, e0, e1⟩ := blockIndex3 t
  funext j
  rw [View.read_apply]
  obtain ⟨p, q, rfl⟩ : ∃ (p : Fin 5000) (q : Fin 128), j = ValueIdx.ix2 p q := ⟨j 0, j 1, ValueIdx.eq_ix2 j⟩
  refine point3 _ _ _ _ p q _ ?_ ?_ ?_
  · show win3_2.index t (1 : Fin 2) * 128 + 1 * q.val = q.val
    rw [e1]; omega
  · refine aggregated3_block_apply V c t (ValueIdx.ix2 p q) _ ?_ ?_
    · show win3_2.index t (0 : Fin 2) * 5000 + 1 * p.val = 5000 * t.val + p.val
      rw [e0]; omega
    · show win3_2.index t (1 : Fin 2) * 128 + 1 * q.val = q.val
      rw [e1]; omega
  · exact bias3_block_apply V c t _

/-- An index of the output array is in point `t`'s block iff each coordinate is in the block's range on its axis. -/
theorem mem_block3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v63).slice (win3_2.rect t)).set ↔ _
  rw [View.set_slice_whole, Rect.mem_set_unit]
  exact Iff.rfl

/-- THE BLOCKS TILE THE ARRAY: node row `r` lies in the block of point `r / 5000`, which writes back. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, e0, e1⟩ := blockIndex3 t
  refine ⟨t, flush3_2 t, ?_⟩
  rw [mem_block3]
  intro a
  match a with
  | ⟨0, _⟩ =>
    show win3_2.index t (0 : Fin 2) * 5000 ≤ (i 0).val ∧ (i 0).val < win3_2.index t (0 : Fin 2) * 5000 + 5000
    rw [e0, ht]; omega
  | ⟨1, _⟩ =>
    show win3_2.index t (1 : Fin 2) * 128 ≤ (i 1).val ∧ (i 1).val < win3_2.index t (1 : Fin 2) * 128 + 128
    rw [e1]; omega

/-- THE OUTPUT ARRAY after the region: max(aggregated + bias row repeated over the nodes, 0). -/
theorem bias3 (c : Dev nD) :
    (dat3 (F := Ideal) V c).arrAt 2 cfg3.N
      = Cert.Gcn.relu128 (addf (V c main_v61) (Cert.Gcn.rows128 (V c main_v62))) :=
  (dat3 V c).arrAt_eq_of_cover 2 _ (fun t _ => flushed3_eq V c t) (fun i => cover3 i)

end Cert.KernelIdeal.Regions

end
-- ==== Proof.DenseRegion4.lean ====
/-
  Region 4: the matrix product of one layer, block by block.

  The region's grid has 20 points; point t reads rows 5000 t … 5000 t + 4999 of the node array (all 128 columns) and the
  whole weight array, and writes back rows 5000 t … of the output (all 64 columns). What a point writes back is the
  matrix unit's product of its two blocks, which is the reference's product x @ w read through the output block; the 20
  output blocks cover the array, so the array ends holding x @ w.
-/
import proofs.«104128_j38603166056972_1_alg».proof.Proof.Stages
import proofs.«104128_j38603166056972_1_alg».proof.Proof.Gen.KernelIdeal.Frame
import proofs.«104128_j38603166056972_1_alg».proof.Proof.Gen.ReferenceIdeal
import proofs.«104128_j38603166056972_1_alg».proof.Proof.LibDenseBlock
import Idealize.ShloMosaic.Lib.ValueIdx
import Idealize.ShloMosaic.Lib.Pipeline.Value
import Idealize.ShloMosaic.PureOps.Ideal.Laws
import Idealize.ShloMosaic.Lib.ValueLayout
noncomputable section
namespace Cert.KernelIdeal.Regions
open Idealize.ShloMosaic Idealize.ShloMosaic.TcCoe Idealize.SL.Sem
open Cert.KernelIdeal Cert.KernelIdeal.Gen
variable (V : (c : Dev nD) → (b : Ref sig .tc) → Buf (Elt Ideal) ((c : Thread nD τ).loc b))

/-- The three windows' block indices at a point, decided over the grid: the node rows and the output rows move together,
    one block per point; every other block index is 0. -/
theorem blockIndices4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Every one of the 20 row blocks is some point's. -/
theorem blockOnto4 : ∀ q : Fin 20, ∃ t : Fin cfg4.N, win4_2.index t = ![q.val, 0] :=
  (by decide +kernel : ∀ q : Fin 20, ∃ t : Fin grid4.N, win4_2.index t = ![q.val, 0])

/-- What point `t` writes back is block `t` of x @ w, x and w the two arrays the region reads as it finds them. -/
theorem flushed4_eq (c : Dev nD) (t : Fin cfg4.N) :
    (dat4 (F := Ideal) V c).flushed 2 t
      = ((cfg4.win 2).blk t).view.read (Elt Ideal) (Cert.Gcn.dense64 (V c main_v63) (V c main_arg7)) := by
  show (cfg4.win 2).cut (grid4.coords t) ((dat4 V c).after 2 t) = _
  rw [after4_2]
  unfold out4_2
  rw [View.canon_unit_zero Cert.Gcn.DenseBlock.zeroOffsets]
  simp only [View.ld_unit_zero (S := S5000x128) Cert.Gcn.DenseBlock.zeroOffsets, View.ld_unit_zero (S := S128x64) Cert.Gcn.DenseBlock.zeroOffsets]
  obtain ⟨f00, f01, f10, f11, f20, f21⟩ := blockIndices4 t
  funext j
  show k4_pay1 (iblk4 V c 0 t) (iblk4 V c 1 t) j
    = Cert.Gcn.dense64 (V c main_v63) (V c main_arg7) (((cfg4.win 2).blk t).view.emb j)
  refine (Cert.Gcn.DenseBlock.pay4_apply _ _ j).trans ?_
  refine Cert.Gcn.DenseBlock.block64 (V c main_v63) (V c main_arg7) (iblk4 V c 0 t) (iblk4 V c 1 t)
    ((cfg4.win 0).blk t).view.emb ((cfg4.win 1).blk t).view.emb ((cfg4.win 2).blk t).view.emb
    (fun y => rfl) (fun y => rfl) t.val ?_ ?_ ?_ ?_ ?_ ?_ j
  · intro y
    show win4_0.index t (0 : Fin 2) * 5000 + 1 * (y 0).val = t.val * 5000 + (y 0).val
    omega
  · intro y
    show win4_0.index t (1 : Fin 2) * 128 + 1 * (y 1).val = (y 1).val
    omega
  · intro y
    show win4_1.index t (0 : Fin 2) * 128 + 1 * (y 0).val = (y 0).val
    omega
  · intro y
    show win4_1.index t (1 : Fin 2) * 64 + 1 * (y 1).val = (y 1).val
    omega
  · intro y
    show win4_2.index t (0 : Fin 2) * 5000 + 1 * (y 0).val = t.val * 5000 + (y 0).val
    omega
  · intro y
    show win4_2.index t (1 : Fin 2) * 64 + 1 * (y 1).val = (y 1).val
    omega

/-- An index of the output array is in point `t`'s block iff each coordinate is in the block's range on its axis. -/
theorem mem_block4 (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v64).slice (win4_2.rect t)).set ↔ _
  rw [View.set_slice_whole, Rect.mem_set_unit]
  exact Iff.rfl

/-- Every index of the output array lies in the block of the point its row belongs to: row r in block r / 5000. -/
theorem covered4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := blockOnto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_block4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- The region leaves x @ w in its output array. -/
theorem dense4 (c : Dev nD) :
    (dat4 (F := Ideal) V c).arrAt 2 cfg4.N = Cert.Gcn.dense64 (V c main_v63) (V c main_arg7) :=
  (dat4 (F := Ideal) V c).arrAt_eq_of_cover 2 (Cert.Gcn.dense64 (V c main_v63) (V c main_arg7))
    (fun t _ => flushed4_eq V c t) (covered4)

end Cert.KernelIdeal.Regions

end
-- ==== Proof.BiasRegion5.lean ====
import proofs.«104128_j38603166056972_1_alg».proof.Proof.Stages
import proofs.«104128_j38603166056972_1_alg».proof.Proof.Gen.KernelIdeal.Frame
import proofs.«104128_j38603166056972_1_alg».proof.Proof.Gen.ReferenceIdeal
import Idealize.ShloMosaic.Lib.ValueIdx
import Idealize.ShloMosaic.Lib.Pipeline.Value
import Idealize.ShloMosaic.PureOps.Ideal.Laws
import Idealize.ShloMosaic.Lib.ValueLayout
import Idealize.ShloMosaic.Lib.KernelVsHost

noncomputable section

namespace Cert.KernelIdeal.Regions

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-! # Region 5: the last layer's bias row

Every one of the 20 grid points reads 5000 rows of the aggregated [100000, 64] array and the whole [1, 64] bias row,
and writes aggregated + bias to the same 5000 rows of its output; there is no max(., 0) after the last layer. The
blocks tile the 100000 rows, so the output array ends holding aggregated + bias row repeated over the nodes. -/

/-- The zero offsets of a whole-buffer access, as the constant function. -/
theorem offsets_zero5 : (![0, 0] : Fin 2 → Nat) = fun _ => 0 := funext fun a => by fin_cases a <;> rfl

/-- a + bias row repeated over the nodes, read at node `r`, feature `q`: the bias row is read at (0, q). -/
theorem biasAdd64_at (a : Vec Ideal Cert.ReferenceIdeal.S100000x64 .f32) (b : Vec Ideal Cert.ReferenceIdeal.S1x64 .f32)
    (r : Fin 100000) (q : Fin 64) :
    addf a (Cert.Gcn.rows64 b) (ValueIdx.ix2 r q) = a (ValueIdx.ix2 r q) + b (ValueIdx.ix2 (0 : Fin 1) q) := by
  unfold Cert.Gcn.rows64
  rw [ValueIdx.addf_apply, broadcastInDim_oneRow_apply]

/-- The body's payload read at row `p`, feature `q` of the block: the same-shape casts are identities, the bias row
    is read at (0, q), the sum is pointwise. -/
theorem payload5_at (x0 : Vec Ideal S5000x64 .f32) (x1 : Vec Ideal S1x64 .f32) (p : Fin 5000) (q : Fin 64) :
    k5_pay1 x0 x1 (ValueIdx.ix2 p q) = x0 (ValueIdx.ix2 p q) + x1 (ValueIdx.ix2 (0 : Fin 1) q) := by
  simp only [k5_pay1]
  rw [ValueIdx.addf_apply, shapeCast_self, shapeCast_self, ValueIdx.broadcastTo_1b_ab_apply]

/-- The printed index maps, decided once over the 20 grid points: the aggregated window and the output window sit at
    row block `t`, column block 0; the bias window at block (0, 0). -/
theorem blockIndex5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Block `t` of the aggregated array at `x` is the array at row 5000 t + x's row, x's feature. -/
theorem aggregated5_block_apply (c : Dev nD) (t : Fin cfg5.N) (x : S5000x64.Idx) (k : S100000x64.Idx)
    (hk0 : (k 0).val = 5000 * t.val + (x 0).val) (hk1 : (k 1).val = (x 1).val) :
    (iblk5 V c 0 t : Vec Ideal S5000x64 .f32) x = (V c main_v77 : S100000x64.Idx → Elt Ideal .f32) k := by
  obtain ⟨e0, e1, -⟩ := blockIndex5 t
  unfold iblk5
  rw [View.read_apply]
  show V c main_v77 _ = V c main_v77 _
  congr 1
  funext a
  apply Fin.ext
  match a with
  | ⟨0, _⟩ => show win5_0.index t (0 : Fin 2) * 5000 + 1 * (x 0).val = (k 0).val; rw [e0, hk0]; omega
  | ⟨1, _⟩ => show win5_0.index t (1 : Fin 2) * 64 + 1 * (x 1).val = (k 1).val; rw [e1, hk1]; omega

/-- The bias window's block is the whole [1, 64] row at every point. -/
theorem bias5_block_apply (c : Dev nD) (t : Fin cfg5.N) (x : S1x64.Idx) :
    (iblk5 V c 1 t : Vec Ideal S1x64 .f32) x = (V c main_v78 : S1x64.Idx → Elt Ideal .f32) x := by
  obtain ⟨-, -, e0, e1, -⟩ := blockIndex5 t
  unfold iblk5
  rw [View.read_apply]
  show V c main_v78 _ = V c main_v78 _
  congr 1
  funext a
  apply Fin.ext
  match a with
  | ⟨0, _⟩ => show win5_1.index t (0 : Fin 2) * 1 + 1 * (x 0).val = (x 0).val; rw [e0]; omega
  | ⟨1, _⟩ => show win5_1.index t (1 : Fin 2) * 64 + 1 * (x 1).val = (x 1).val; rw [e1]; omega

/-- ONE ELEMENT: if the loaded aggregated block at (p, q) is the array `a` at `i`, whose feature is `q`, and the
    loaded bias row is `b`'s, then the payload at (p, q) is a + bias row over the nodes at `i`. -/
theorem point5 (a : Vec Ideal S100000x64 .f32) (b : Vec Ideal S1x64 .f32)
    (x0 : Vec Ideal S5000x64 .f32) (x1 : Vec Ideal S1x64 .f32) (p : Fin 5000) (q : Fin 64) (i : S100000x64.Idx)
    (hi1 : (i 1).val = q.val) (h0 : x0 (ValueIdx.ix2 p q) = a i)
    (h1 : x1 (ValueIdx.ix2 (0 : Fin 1) q) = b (ValueIdx.ix2 (0 : Fin 1) q)) :
    k5_pay1 x0 x1 (ValueIdx.ix2 p q) = addf a (Cert.Gcn.rows64 b) i := by
  obtain ⟨r, q', rfl⟩ : ∃ (r : Fin 100000) (q' : Fin 64), i = ValueIdx.ix2 r q' := ⟨i 0, i 1, ValueIdx.eq_ix2 i⟩
  obtain rfl : q' = q := Fin.ext hi1
  rw [payload5_at, biasAdd64_at, h0, h1]

/-- WHAT POINT `t` WRITES BACK is block `t` of aggregated + bias row over the nodes. -/
theorem flushed5_eq (c : Dev nD) (t : Fin cfg5.N) :
    (dat5 (F := Ideal) V c).flushed 2 t
      = ((cfg5.win 2).blk t).view.read (Elt Ideal) (addf (V c main_v77) (Cert.Gcn.rows64 (V c main_v78))) := by
  show (cfg5.win 2).cut (grid5.coords t) ((dat5 V c).after 2 t) = _
  rw [after5_2]
  unfold out5_2
  rw [View.canon_unit_zero offsets_zero5]
  simp only [View.ld_unit_zero (S := S5000x64) offsets_zero5, View.ld_unit_zero (S := S1x64) offsets_zero5]
  obtain ⟨-, -, -, -, e0, e1⟩ := blockIndex5 t
  funext j
  rw [View.read_apply]
  obtain ⟨p, q, rfl⟩ : ∃ (p : Fin 5000) (q : Fin 64), j = ValueIdx.ix2 p q := ⟨j 0, j 1, ValueIdx.eq_ix2 j⟩
  refine point5 _ _ _ _ p q _ ?_ ?_ ?_
  · show win5_2.index t (1 : Fin 2) * 64 + 1 * q.val = q.val
    rw [e1]; omega
  · refine aggregated5_block_apply V c t (ValueIdx.ix2 p q) _ ?_ ?_
    · show win5_2.index t (0 : Fin 2) * 5000 + 1 * p.val = 5000 * t.val + p.val
      rw [e0]; omega
    · show win5_2.index t (1 : Fin 2) * 64 + 1 * q.val = q.val
      rw [e1]; omega
  · exact bias5_block_apply V c t _

/-- An index of the output array is in point `t`'s block iff each coordinate is in the block's range on its axis. -/
theorem mem_block5 (t : Fin cfg5.N) (i : S100000x64.Idx) :
    i ∈ ((cfg5.win 2).blk t).view.set ↔ ∀ a : Fin 2, win5_2.index t a * S5000x64.size a ≤ (i a).val
      ∧ (i a).val < win5_2.index t a * S5000x64.size a + S5000x64.size a := by
  show i ∈ ((View.whole main_v79).slice (win5_2.rect t)).set ↔ _
  rw [View.set_slice_whole, Rect.mem_set_unit]
  exact Iff.rfl

/-- THE BLOCKS TILE THE ARRAY: node row `r` lies in the block of point `r / 5000`, which writes back. -/
theorem cover5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 20 := N_5
  obtain ⟨t, ht⟩ : ∃ t : Fin cfg5.N, t.val = (i 0).val / 5000 := ⟨⟨(i 0).val / 5000, by rw [hN]; omega⟩, rfl⟩
  obtain ⟨-, -, -, -, e0, e1⟩ := blockIndex5 t
  refine ⟨t, flush5_2 t, ?_⟩
  rw [mem_block5]
  intro a
  match a with
  | ⟨0, _⟩ =>
    show win5_2.index t (0 : Fin 2) * 5000 ≤ (i 0).val ∧ (i 0).val < win5_2.index t (0 : Fin 2) * 5000 + 5000
    rw [e0, ht]; omega
  | ⟨1, _⟩ =>
    show win5_2.index t (1 : Fin 2) * 64 ≤ (i 1).val ∧ (i 1).val < win5_2.index t (1 : Fin 2) * 64 + 64
    rw [e1]; omega

/-- THE OUTPUT ARRAY after the region: aggregated + bias row repeated over the nodes. -/
theorem bias5 (c : Dev nD) :
    (dat5 (F := Ideal) V c).arrAt 2 cfg5.N = addf (V c main_v77) (Cert.Gcn.rows64 (V c main_v78)) :=
  (dat5 V c).arrAt_eq_of_cover 2 _ (fun t _ => flushed5_eq V c t) (fun i => cover5 i)

end Cert.KernelIdeal.Regions

end
-- ==== Proof.KernelValue.lean ====
/-
  The idealized kernel program's result as one function of its arguments: region by region and host stretch by
  host stretch, the result buffer ends at the three-layer network of the stage functions — each matmul region the
  dense product, each bias region the bias row added (and the maximum with 0 in the hidden layers), the host
  operations between them the aggregation along the self-looped, normalised edges.
-/
import proofs.«104128_j38603166056972_1_alg».proof.Proof.Stages
import proofs.«104128_j38603166056972_1_alg».proof.Proof.HostEntry
import proofs.«104128_j38603166056972_1_alg».proof.Proof.HostLayers
import proofs.«104128_j38603166056972_1_alg».proof.Proof.DenseRegion0
import proofs.«104128_j38603166056972_1_alg».proof.Proof.BiasRegion1
import proofs.«104128_j38603166056972_1_alg».proof.Proof.DenseRegion2
import proofs.«104128_j38603166056972_1_alg».proof.Proof.BiasRegion3
import proofs.«104128_j38603166056972_1_alg».proof.Proof.DenseRegion4
import proofs.«104128_j38603166056972_1_alg».proof.Proof.BiasRegion5
set_option maxHeartbeats 2000000

noncomputable section

namespace Cert.KernelIdeal.Net

open Idealize.ShloMosaic Idealize.ShloMosaic.TcCoe Idealize.SL.Sem Idealize.ShloMosaic.StableHlo
open Cert.KernelIdeal Cert.KernelIdeal.Gen Cert.KernelIdeal.Host Cert.KernelIdeal.Regions

variable (m : (ℓ : Loc nD τ sig) → Buf (Elt Ideal) ℓ) (ρ : Dev nD → PrngReg)

/-- The first hidden layer of the arguments. -/
abbrev hidden1 (c : Dev nD) : Vec Ideal Cert.ReferenceIdeal.S100000x128 .f32 :=
  Cert.Gcn.hidden (m ((c : Thread nD τ).loc main_arg0)) (m ((c : Thread nD τ).loc main_arg3)) (broadcastInDim Cert.ReferenceIdeal.S1x128 ![1] Cert.ReferenceIdeal.Facts₀.bcast_S128_S1x128_1 (m ((c : Thread nD τ).loc main_arg4)))
          (Cert.Gcn.sources (m ((c : Thread nD τ).loc main_arg1))) (Cert.Gcn.targets (m ((c : Thread nD τ).loc main_arg1)))
          (Cert.Gcn.edgeNorm (m ((c : Thread nD τ).loc main_arg1)) (m ((c : Thread nD τ).loc main_arg2)))

/-- The second hidden layer of the arguments. -/
abbrev hidden2 (c : Dev nD) : Vec Ideal Cert.ReferenceIdeal.S100000x128 .f32 :=
  Cert.Gcn.hidden (hidden1 m c) (m ((c : Thread nD τ).loc main_arg5)) (broadcastInDim Cert.ReferenceIdeal.S1x128 ![1] Cert.ReferenceIdeal.Facts₀.bcast_S128_S1x128_1 (m ((c : Thread nD τ).loc main_arg6)))
          (Cert.Gcn.sources (m ((c : Thread nD τ).loc main_arg1))) (Cert.Gcn.targets (m ((c : Thread nD τ).loc main_arg1)))
          (Cert.Gcn.edgeNorm (m ((c : Thread nD τ).loc main_arg1)) (m ((c : Thread nD τ).loc main_arg2)))

/-- After the first bias region: the first matmul region's product, aggregated along the edges by the host
    operations, plus the bias row, maximum with 0. -/
theorem layer1 (c : Dev nD) :
    (W6 (F := Ideal) m ρ c (Proc.devRef .tc main_v47) : Vec Ideal S100000x128 .f32) = hidden1 m c := by
  have e1 : W6 (F := Ideal) m ρ c (Proc.devRef .tc main_v47) = (dat1 (V5 m ρ) c).arrAt 2 cfg1.N := W6_arr m ρ c 2
  have e0 : W4 (F := Ideal) m ρ c (Proc.devRef .tc main_v32) = (dat0 (V3 m ρ) c).arrAt 2 cfg0.N := W4_arr m ρ c 2
  rw [e1, bias1 (V5 m ρ) c]
  show Cert.Gcn.relu128 (addf (W5 (F := Ideal) m ρ c (Proc.devRef .tc main_v45)) (Cert.Gcn.rows128 (W5 (F := Ideal) m ρ c (Proc.devRef .tc main_v46)))) = _
  rw [aggregated5, biasRow5, e0, dense0 (V3 m ρ) c]
  show Cert.Gcn.relu128 (addf (Cert.Gcn.aggregate128 (Cert.Gcn.dense128 (W3 (F := Ideal) m ρ c (Proc.devRef .tc main_arg0)) (W3 (F := Ideal) m ρ c (Proc.devRef .tc main_arg3))) _ _ _) _) = _
  rw [arg0_3, arg3_3, sources4, targets4, edgeNorm4, bias4, sources3, targets3, edgeNorm3, arg4_3]
  rfl

/-- After the second bias region. -/
theorem layer2 (c : Dev nD) :
    (W9 (F := Ideal) m ρ c (Proc.devRef .tc main_v63) : Vec Ideal S100000x128 .f32) = hidden2 m c := by
  have e3 : W9 (F := Ideal) m ρ c (Proc.devRef .tc main_v63) = (dat3 (V8 m ρ) c).arrAt 2 cfg3.N := W9_arr m ρ c 2
  have e2 : W7 (F := Ideal) m ρ c (Proc.devRef .tc main_v48) = (dat2 (V6 m ρ) c).arrAt 2 cfg2.N := W7_arr m ρ c 2
  rw [e3, bias3 (V8 m ρ) c]
  show Cert.Gcn.relu128 (addf (W8 (F := Ideal) m ρ c (Proc.devRef .tc main_v61)) (Cert.Gcn.rows128 (W8 (F := Ideal) m ρ c (Proc.devRef .tc main_v62)))) = _
  rw [aggregated8, biasRow8, e2, dense2 (V6 m ρ) c]
  show Cert.Gcn.relu128 (addf (Cert.Gcn.aggregate128 (Cert.Gcn.dense128 (W6 (F := Ideal) m ρ c (Proc.devRef .tc main_v47)) (W6 (F := Ideal) m ρ c (Proc.devRef .tc main_arg5))) _ _ _) _) = _
  rw [layer1, weight6, arg5_3, sources7, targets7, edgeNorm7, bias7, sources3, targets3, edgeNorm3, arg6_3]
  rfl

/-- THE RESULT: after the last bias region the result buffer holds the network of the arguments. -/
theorem result_eq (c : Dev nD) :
    (W12 (F := Ideal) m ρ c (Proc.devRef .tc main_v79) : Vec Ideal S100000x64 .f32)
      = Cert.Gcn.network (m ((c : Thread nD τ).loc main_arg0)) (m ((c : Thread nD τ).loc main_arg1)) (m ((c : Thread nD τ).loc main_arg2))
          (m ((c : Thread nD τ).loc main_arg3)) (broadcastInDim Cert.ReferenceIdeal.S1x128 ![1] Cert.ReferenceIdeal.Facts₀.bcast_S128_S1x128_1 (m ((c : Thread nD τ).loc main_arg4)))
          (m ((c : Thread nD τ).loc main_arg5)) (broadcastInDim Cert.ReferenceIdeal.S1x128 ![1] Cert.ReferenceIdeal.Facts₀.bcast_S128_S1x128_1 (m ((c : Thread nD τ).loc main_arg6)))
          (m ((c : Thread nD τ).loc main_arg7)) (broadcastInDim Cert.ReferenceIdeal.S1x64 ![1] Cert.ReferenceIdeal.Facts₀.bcast_S64_S1x64_1 (m ((c : Thread nD τ).loc main_arg8))) := by
  have e5 : W12 (F := Ideal) m ρ c (Proc.devRef .tc main_v79) = (dat5 (V11 m ρ) c).arrAt 2 cfg5.N := W12_arr m ρ c 2
  have e4 : W10 (F := Ideal) m ρ c (Proc.devRef .tc main_v64) = (dat4 (V9 m ρ) c).arrAt 2 cfg4.N := W10_arr m ρ c 2
  rw [e5, bias5 (V11 m ρ) c]
  show addf (W11 (F := Ideal) m ρ c (Proc.devRef .tc main_v77)) (Cert.Gcn.rows64 (W11 (F := Ideal) m ρ c (Proc.devRef .tc main_v78))) = _
  rw [aggregated11, biasRow11, e4, dense4 (V9 m ρ) c]
  show addf (Cert.Gcn.aggregate64 (Cert.Gcn.dense64 (W9 (F := Ideal) m ρ c (Proc.devRef .tc main_v63)) (W9 (F := Ideal) m ρ c (Proc.devRef .tc main_arg7))) _ _ _) _ = _
  rw [layer2, weight9, arg7_3, sources10, targets10, edgeNorm10, bias10, sources3, targets3, edgeNorm3, arg8_3]
  rfl

end Cert.KernelIdeal.Net

end
-- ==== Proof.RefValue.lean ====
/-
  The reference program's result, read back: the composed term its run ends at is the three-layer network of
  the stage functions (the same host operations, grouped by stage), with each bias vector as the [1, d] row
  jnp's broadcasting makes of it.
-/
import proofs.«104128_j38603166056972_1_alg».proof.Proof.Stages
import proofs.«104128_j38603166056972_1_alg».proof.Proof.Gen.ReferenceIdeal
import proofs.«104128_j38603166056972_1_alg».proof.Proof.Gen.ReferenceIdeal.Run

set_option maxHeartbeats 2000000

noncomputable section

namespace Cert.ReferenceIdeal.RefValue

open Idealize.ShloMosaic Idealize.ShloMosaic.TcCoe Idealize.SL.Sem
open Cert.ReferenceIdeal Cert.ReferenceIdeal.Gen Cert.ReferenceIdeal.Value

set_option maxRecDepth 8192 in
/-- The run's result term is the network of the argument arrays: both sides are the same tree of host operations,
    the right one folded into its stages. -/
theorem result_eq (m : (ℓ : Loc nD τ sig) → Buf (Elt Ideal) ℓ) (c : Dev nD) :
    res_main_v84 (F := Ideal) m c = Cert.Gcn.network (m ((c.tc : Thread nD τ).loc main_arg0)) (m ((c.tc : Thread nD τ).loc main_arg1)) (m ((c.tc : Thread nD τ).loc main_arg2))
      (m ((c.tc : Thread nD τ).loc main_arg3)) (broadcastInDim S1x128 ![1] Facts₀.bcast_S128_S1x128_1 (m ((c.tc : Thread nD τ).loc main_arg4)))
      (m ((c.tc : Thread nD τ).loc main_arg5)) (broadcastInDim S1x128 ![1] Facts₀.bcast_S128_S1x128_1 (m ((c.tc : Thread nD τ).loc main_arg6)))
      (m ((c.tc : Thread nD τ).loc main_arg7)) (broadcastInDim S1x64 ![1] Facts₀.bcast_S64_S1x64_1 (m ((c.tc : Thread nD τ).loc main_arg8))) := by
  unfold res_main_v84 Cert.Gcn.network Cert.Gcn.last Cert.Gcn.hidden Cert.Gcn.relu128 Cert.Gcn.rows128 Cert.Gcn.rows64 Cert.Gcn.aggregate128 Cert.Gcn.aggregate64 Cert.Gcn.dense128 Cert.Gcn.dense64 Cert.Gcn.edgeNorm Cert.Gcn.invSqrtDegree Cert.Gcn.degree Cert.Gcn.wrapped Cert.Gcn.sources Cert.Gcn.targets Cert.Gcn.weights
  rfl

end Cert.ReferenceIdeal.RefValue

end
-- ==== Proof.lean ====
/-
  A three-layer graph convolution network over 100000 nodes and 1600000 weighted edges, one self loop added per
  node: every layer is  out = A (h W) + b  with A the symmetrically normalised adjacency
  (A[n, s] = sum over the edges s → n of dis[s] * dis[n] * weight, dis = 1/sqrt(weighted in-degree), 0 where the degree
  is not positive), and max(., 0) after the first two layers. The kernel program computes h W in a matmul kernel
  (20 blocks of 5000 nodes, the operands narrowed to bf16 on the way into the product, the sum kept in f32), leaves
  the gather along the edges, the scaling and the sum at the targets to the same host operations the reference uses,
  and adds the bias row (and takes the maximum) in a second kernel over the same blocks. Read over the extended reals the
  narrowing is the identity, a matmul kernel's block is the rows of the whole product, a bias kernel's block is the
  rows of the whole sum, and a bias vector reshaped to a row is the vector broadcast along a new leading axis; so the
  two programs apply the same tree of operations to the same arguments, and no law of arithmetic — hence no
  finiteness of the inputs — is needed. The three frames are the programs' runs with the results dropped; the
  idealization rewrote nothing, so it preserves trivially.
-/
import proofs.«104128_j38603166056972_1_alg».proof.Defs
import proofs.«104128_j38603166056972_1_alg».proof.Proof.Gen.Kernel
import proofs.«104128_j38603166056972_1_alg».proof.Proof.Gen.Kernel.Skeleton
import proofs.«104128_j38603166056972_1_alg».proof.Proof.Gen.Kernel.Launch
import proofs.«104128_j38603166056972_1_alg».proof.Proof.Gen.Kernel.Points
import proofs.«104128_j38603166056972_1_alg».proof.Proof.Gen.Kernel.Frame
import proofs.«104128_j38603166056972_1_alg».proof.Proof.Gen.KernelIdeal
import proofs.«104128_j38603166056972_1_alg».proof.Proof.Gen.KernelIdeal.Skeleton
import proofs.«104128_j38603166056972_1_alg».proof.Proof.Gen.KernelIdeal.Launch
import proofs.«104128_j38603166056972_1_alg».proof.Proof.Gen.KernelIdeal.Points
import proofs.«104128_j38603166056972_1_alg».proof.Proof.Gen.KernelIdeal.Frame
import proofs.«104128_j38603166056972_1_alg».proof.Proof.Gen.ReferenceIdeal
import proofs.«104128_j38603166056972_1_alg».proof.Proof.Gen.ReferenceIdeal.Run
import proofs.«104128_j38603166056972_1_alg».proof.Proof.Gen.ReferenceIdeal.Read
import proofs.«104128_j38603166056972_1_alg».proof.Proof.Gen.Pre_finite_inputs
import proofs.«104128_j38603166056972_1_alg».proof.Proof.KernelRun
import proofs.«104128_j38603166056972_1_alg».proof.Proof.KernelValue
import proofs.«104128_j38603166056972_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the network of their arguments in the result buffer, and the arguments agree. -/
theorem algebraic : Cert.algebraic_KernelIdeal_ReferenceIdeal := by
  intro m ρ m' ρ' _ hagree
  refine ⟨fun c => Cert.KernelIdeal.Gen.W12 (F := Ideal) m ρ c (Proc.devRef .tc Cert.KernelIdeal.main_v79),
    Cert.KernelIdeal.Run.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.RefValue.result_eq, h0, h1, h2, h3, h4, h5, h6, h7, h8]
  exact (Cert.KernelIdeal.Net.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
